-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x128 : Shape := ⟨2, ![4096, 128]⟩
abbrev S8192x256 : Shape := ⟨2, ![8192, 256]⟩
abbrev S8192x128 : Shape := ⟨2, ![8192, 128]⟩
abbrev S256x128 : Shape := ⟨2, ![256, 128]⟩
abbrev S1x3 : Shape := ⟨2, ![1, 3]⟩
abbrev S512x1 : Shape := ⟨2, ![512, 1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x128 : S_.BroadcastsInDim S8192x128 (![] : Fin 0 → Fin S8192x128.rank)
  reducesTo_S8192x128_S_d0_1 : S8192x128.ReducesTo [0, 1] S_
  bcast_S_S256x128 : S_.BroadcastsInDim S256x128 (![] : Fin 0 → Fin S256x128.rank)
  reducesTo_S256x128_S_d0_1 : S256x128.ReducesTo [0, 1] S_
  bcast_S_S1x3 : S_.BroadcastsInDim S1x3 (![] : Fin 0 → Fin S1x3.rank)
  reducesTo_S1x3_S_d0_1 : S1x3.ReducesTo [0, 1] S_
  bcast_S_S512x1 : S_.BroadcastsInDim S512x1 (![] : Fin 0 → Fin S512x1.rank)
  reducesTo_S512x1_S_d0_1 : S512x1.ReducesTo [0, 1] S_

variable [Facts]

def fn_part3 {F : FTy → Type} [FloatOps F] (main_arg11 : FVec F S1x3 .f32) (main_arg12 : FVec F S512x1 .f32) (main_v48 : IVec S_ 1) (main_v49 : FVec F S1x3 .f32) (main_v50 : FVec F S1x3 .f32) : IVec S_ 1 :=
  let main_v51 : IVec S1x3 1 := cmpf .olt main_v49 main_v50
  let main_c_19 : IVec S_ 1 := constantI S_ 1 1#1
  let main_v52 : IVec S_ 1 := (fun x v => Host.reduce IntOp.andi x v reducesTo_S1x3_S_d0_1 h_S_) main_v51 main_c_19
  let main_v53 : IVec S_ 1 := andi main_v48 main_v52
  let main_v54 : FVec F S1x3 .f32 := Host.absf main_arg11
  let main_cst_20 : FVec F S_ .f32 := constant S_ .f32 0x7F800000#32
  let main_v55 : FVec F S1x3 .f32 := broadcastInDim S1x3 ![] bcast_S_S1x3 main_cst_20
  let main_v56 : IVec S1x3 1 := cmpf .olt main_v54 main_v55
  let main_c_21 : IVec S_ 1 := constantI S_ 1 1#1
  let main_v57 : IVec S_ 1 := (fun x v => Host.reduce IntOp.andi x v reducesTo_S1x3_S_d0_1 h_S_) main_v56 main_c_21
  let main_v58 : IVec S_ 1 := andi main_v53 main_v57
  let main_v59 : FVec F S512x1 .f32 := Host.absf main_arg12
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  main_v63

def fn_part2 {F : FTy → Type} [FloatOps F] (main_arg7 : FVec F S8192x128 .f32) (main_arg8 : FVec F S256x128 .f32) (main_arg9 : FVec F S256x128 .f32) (main_arg10 : FVec F S1x3 .f32) (main_arg11 : FVec F S1x3 .f32) (main_arg12 : FVec F S512x1 .f32) (main_v33 : IVec S_ 1) : IVec S_ 1 :=
  let main_v34 : FVec F S8192x128 .f32 := Host.absf main_arg7
  let main_cst_12 : FVec F S_ .f32 := constant S_ .f32 0x7F800000#32
  let main_v35 : FVec F S8192x128 .f32 := broadcastInDim S8192x128 ![] bcast_S_S8192x128 main_cst_12
  let main_v36 : IVec S8192x128 1 := cmpf .olt main_v34 main_v35
  let main_c_13 : IVec S_ 1 := constantI S_ 1 1#1
  let main_v37 : IVec S_ 1 := (fun x v => Host.reduce IntOp.andi x v reducesTo_S8192x128_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S1x3 .f32 := Host.absf main_arg10
  let main_cst_18 : FVec F S_ .f32 := constant S_ .f32 0x7F800000#32
  let main_v50 : FVec F S1x3 .f32 := broadcastInDim S1x3 ![] bcast_S_S1x3 main_cst_18
  fn_part3 (F := F) main_arg11 main_arg12 main_v48 main_v49 main_v50

def fn_part1 {F : FTy → Type} [FloatOps F] (main_arg4 : FVec F S8192x256 .f32) (main_arg5 : FVec F S8192x256 .f32) (main_arg6 : FVec F S8192x256 .f32) (main_arg7 : FVec F S8192x128 .f32) (main_arg8 : FVec F S256x128 .f32) (main_arg9 : FVec F S256x128 .f32) (main_arg10 : FVec F S1x3 .f32) (main_arg11 : FVec F S1x3 .f32) (main_arg12 : FVec F S512x1 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x256 .f32 := Host.absf main_arg5
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x256 .f32) (main_arg1 : FVec F S4096x256 .f32) (main_arg2 : FVec F S4096x256 .f32) (main_arg3 : FVec F S4096x128 .f32) (main_arg4 : FVec F S8192x256 .f32) (main_arg5 : FVec F S8192x256 .f32) (main_arg6 : FVec F S8192x256 .f32) (main_arg7 : FVec F S8192x128 .f32) (main_arg8 : FVec F S256x128 .f32) (main_arg9 : FVec F S256x128 .f32) (main_arg10 : FVec F S1x3 .f32) (main_arg11 : FVec F S1x3 .f32) (main_arg12 : FVec F S512x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_arg9 main_arg10 main_arg11 main_arg12 main_v13 main_v16
-- ==== Kernel.lean ====
abbrev S4096x256 : Shape := ⟨2, ![4096, 256]⟩
abbrev S4096x128 : Shape := ⟨2, ![4096, 128]⟩
abbrev S8192x256 : Shape := ⟨2, ![8192, 256]⟩
abbrev S8192x128 : Shape := ⟨2, ![8192, 128]⟩
abbrev S256x128 : Shape := ⟨2, ![256, 128]⟩
abbrev S1x3 : Shape := ⟨2, ![1, 3]⟩
abbrev S512x1 : Shape := ⟨2, ![512, 1]⟩
abbrev S256x1 : Shape := ⟨2, ![256, 1]⟩
abbrev S4096x1 : Shape := ⟨2, ![4096, 1]⟩
abbrev S512x256 : Shape := ⟨2, ![512, 256]⟩
abbrev S512x128 : Shape := ⟨2, ![512, 128]⟩
abbrev S1x1 : Shape := ⟨2, ![1, 1]⟩
abbrev S8192x1 : Shape := ⟨2, ![8192, 1]⟩
abbrev S1024x256 : Shape := ⟨2, ![1024, 256]⟩
abbrev S1024x128 : Shape := ⟨2, ![1024, 128]⟩
abbrev S1024x1 : Shape := ⟨2, ![1024, 1]⟩
abbrev S1x8192 : Shape := ⟨2, ![1, 8192]⟩
abbrev S4096x8192 : Shape := ⟨2, ![4096, 8192]⟩
abbrev S1x2048 : Shape := ⟨2, ![1, 2048]⟩
abbrev S512x2048 : Shape := ⟨2, ![512, 2048]⟩

abbrev nBuf : Space → Nat
  | .hbm => 19
  | .vmem => 32
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x128, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x128, .f32⟩
  | .hbm, ⟨8, _⟩ => ⟨S256x128, .f32⟩
  | .hbm, ⟨9, _⟩ => ⟨S256x128, .f32⟩
  | .hbm, ⟨10, _⟩ => ⟨S1x3, .f32⟩
  | .hbm, ⟨11, _⟩ => ⟨S1x3, .f32⟩
  | .hbm, ⟨12, _⟩ => ⟨S512x1, .f32⟩
  | .hbm, ⟨13, _⟩ => ⟨S256x1, .f32⟩
  | .hbm, ⟨14, _⟩ => ⟨S256x1, .f32⟩
  | .hbm, ⟨15, _⟩ => ⟨S4096x1, .f32⟩
  | .hbm, ⟨16, _⟩ => ⟨S8192x1, .f32⟩
  | .hbm, ⟨17, _⟩ => ⟨S1x8192, .f32⟩
  | .hbm, ⟨18, _⟩ => ⟨S4096x8192, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S256x128, .f32⟩
  | .local _ .vmem, ⟨9, _⟩ => ⟨S256x1, .f32⟩
  | .local _ .vmem, ⟨10, _⟩ => ⟨S1x3, .f32⟩
  | .local _ .vmem, ⟨11, _⟩ => ⟨S512x1, .f32⟩
  | .local _ .vmem, ⟨12, _⟩ => ⟨S512x1, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x128, .f32⟩
  | .local _ .vmem, ⟨20, _⟩ => ⟨S1024x128, .f32⟩
  | .local _ .vmem, ⟨21, _⟩ => ⟨S256x128, .f32⟩
  | .local _ .vmem, ⟨22, _⟩ => ⟨S256x1, .f32⟩
  | .local _ .vmem, ⟨23, _⟩ => ⟨S1x3, .f32⟩
  | .local _ .vmem, ⟨24, _⟩ => ⟨S1024x1, .f32⟩
  | .local _ .vmem, ⟨25, _⟩ => ⟨S1024x1, .f32⟩
  | .local _ .vmem, ⟨26, _⟩ => ⟨S512x1, .f32⟩
  | .local _ .vmem, ⟨27, _⟩ => ⟨S512x1, .f32⟩
  | .local _ .vmem, ⟨28, _⟩ => ⟨S1x2048, .f32⟩
  | .local _ .vmem, ⟨29, _⟩ => ⟨S1x2048, .f32⟩
  | .local _ .vmem, ⟨30, _⟩ => ⟨S512x2048, .f32⟩
  | .local _ .vmem, ⟨31, _⟩ => ⟨S512x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S512x1_S256x1_0_0 : S512x1.Slices ![0, 0] S256x1
  slices_S512x1_S256x1_256_0 : S512x1.Slices ![256, 0] S256x1
  inb_S1x3_S1x1_0_0 : ∀ a, (![0, 0] : Fin 2 → Nat) a + S1x1.size a ≤ S1x3.size a
  h_S1x1 : 0 < S1x1.numel
  inpos_S1x1_p0_0 : ∀ a, (![0, 0] : Fin 2 → Nat) a < S1x1.size a
  inb_S1x3_S1x1_0_1 : ∀ a, (![0, 1] : Fin 2 → Nat) a + S1x1.size a ≤ S1x3.size a
  inb_S1x3_S1x1_0_2 : ∀ a, (![0, 2] : Fin 2 → Nat) a + S1x1.size a ≤ S1x3.size a
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  concatenates_S512x128_S512x128_S512x256_d1 : Shape.Concatenates [S512x128, S512x128] S512x256 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x1_S512x1_0_0 : ∀ a, (![0, 0] : Fin 2 → Nat) a + S512x1.size a ≤ S512x1.size a
  h_S512x1 : 0 < S512x1.numel
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  concatenates_S1024x128_S1024x128_S1024x256_d1 : Shape.Concatenates [S1024x128, S1024x128] S1024x256 1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x256_S256x128_S512x128_1_0_0_1_n_n_wf : DotDims.WF S512x256 S256x128 S512x128 [1] [0] [0] [1] [] []
  dot_S512x256_S256x1_S512x1_1_0_0_1_n_n_wf : DotDims.WF S512x256 S256x1 S512x1 [1] [0] [0] [1] [] []
  dot_S1024x256_S256x128_S1024x128_1_0_0_1_n_n_wf : DotDims.WF S1024x256 S256x128 S1024x128 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1.size a ≤ S4096x1.size a
  hwx2_0 : ∀ i : grid2.Coords, EltTy.bits .f32 = 32 ∨ (Rect.block (s := S4096x1) S512x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x8192.size a
  hwx2_1 : ∀ i : grid2.Coords, EltTy.bits .f32 = 32 ∨ (Rect.block (s := S1x8192) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x8192.size a
  hwx2_2 : ∀ i : grid2.Coords, EltTy.bits .f32 = 32 ∨ (Rect.block (s := S4096x8192) S512x2048.size (cc2_transform_2 i) (hinb2_2 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg4) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v2) S512x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x256 : Shape := ⟨2, ![4096, 256]⟩
abbrev S4096x128 : Shape := ⟨2, ![4096, 128]⟩
abbrev S8192x256 : Shape := ⟨2, ![8192, 256]⟩
abbrev S8192x128 : Shape := ⟨2, ![8192, 128]⟩
abbrev S256x128 : Shape := ⟨2, ![256, 128]⟩
abbrev S1x3 : Shape := ⟨2, ![1, 3]⟩
abbrev S512x1 : Shape := ⟨2, ![512, 1]⟩
abbrev S12288x256 : Shape := ⟨2, ![12288, 256]⟩
abbrev S3x1048576 : Shape := ⟨2, ![3, 1048576]⟩
abbrev S1x1048576 : Shape := ⟨2, ![1, 1048576]⟩
abbrev S24576x256 : Shape := ⟨2, ![24576, 256]⟩
abbrev S3x2097152 : Shape := ⟨2, ![3, 2097152]⟩
abbrev S1x2097152 : Shape := ⟨2, ![1, 2097152]⟩
abbrev S256x1 : Shape := ⟨2, ![256, 1]⟩
abbrev S4096x1 : Shape := ⟨2, ![4096, 1]⟩
abbrev S8192x1 : Shape := ⟨2, ![8192, 1]⟩
abbrev S1x8192 : Shape := ⟨2, ![1, 8192]⟩
abbrev S4096x8192 : Shape := ⟨2, ![4096, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x128, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x128, .f32⟩
  | .hbm, ⟨8, _⟩ => ⟨S256x128, .f32⟩
  | .hbm, ⟨9, _⟩ => ⟨S256x128, .f32⟩
  | .hbm, ⟨10, _⟩ => ⟨S1x3, .f32⟩
  | .hbm, ⟨11, _⟩ => ⟨S1x3, .f32⟩
  | .hbm, ⟨12, _⟩ => ⟨S512x1, .f32⟩
  | .hbm, ⟨13, _⟩ => ⟨S12288x256, .f32⟩
  | .hbm, ⟨14, _⟩ => ⟨S3x1048576, .f32⟩
  | .hbm, ⟨15, _⟩ => ⟨S1x1048576, .f32⟩
  | .hbm, ⟨16, _⟩ => ⟨S4096x256, .f32⟩
  | .hbm, ⟨17, _⟩ => ⟨S24576x256, .f32⟩
  | .hbm, ⟨18, _⟩ => ⟨S3x2097152, .f32⟩
  | .hbm, ⟨19, _⟩ => ⟨S1x2097152, .f32⟩
  | .hbm, ⟨20, _⟩ => ⟨S8192x256, .f32⟩
  | .hbm, ⟨21, _⟩ => ⟨S4096x128, .f32⟩
  | .hbm, ⟨22, _⟩ => ⟨S4096x256, .f32⟩
  | .hbm, ⟨23, _⟩ => ⟨S8192x128, .f32⟩
  | .hbm, ⟨24, _⟩ => ⟨S8192x256, .f32⟩
  | .hbm, ⟨25, _⟩ => ⟨S256x1, .f32⟩
  | .hbm, ⟨26, _⟩ => ⟨S256x1, .f32⟩
  | .hbm, ⟨27, _⟩ => ⟨S4096x1, .f32⟩
  | .hbm, ⟨28, _⟩ => ⟨S8192x1, .f32⟩
  | .hbm, ⟨29, _⟩ => ⟨S1x8192, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S4096x8192, .i1⟩
  | .hbm, ⟨39, _⟩ => ⟨S4096x8192, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S4096x8192, .f32⟩
  | .hbm, ⟨45, _⟩ => ⟨S4096x8192, .f32⟩
  | .hbm, ⟨46, _⟩ => ⟨S4096x8192, .f32⟩
  | .hbm, ⟨47, _⟩ => ⟨S4096x8192, .f32⟩
  | .hbm, ⟨48, _⟩ => ⟨S4096x8192, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩

abbrev nD : Nat := 1
abbrev τ : Topo := Topo.v7x

variable {F : FTy → Type} [FloatOps F]

class Facts₀ : Prop where
  concatenates_S4096x256_S4096x256_S4096x256_S12288x256_d0 : Shape.Concatenates [S4096x256, S4096x256, S4096x256] S12288x256 0
  shapeCasts_S12288x256_S3x1048576 : S12288x256.ShapeCasts S3x1048576
  shapeCasts_S1x1048576_S4096x256 : S1x1048576.ShapeCasts S4096x256
  concatenates_S8192x256_S8192x256_S8192x256_S24576x256_d0 : Shape.Concatenates [S8192x256, S8192x256, S8192x256] S24576x256 0
  shapeCasts_S24576x256_S3x2097152 : S24576x256.ShapeCasts S3x2097152
  shapeCasts_S1x2097152_S8192x256 : S1x2097152.ShapeCasts S8192x256
  concatenates_S4096x128_S4096x128_S4096x256_d1 : Shape.Concatenates [S4096x128, S4096x128] S4096x256 1
  concatenates_S8192x128_S8192x128_S8192x256_d1 : Shape.Concatenates [S8192x128, S8192x128] S8192x256 1
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  dot_S1x3_S3x1048576_S1x1048576_1_0_0_1_n_n_wf : DotDims.WF S1x3 S3x1048576 S1x1048576 [1] [0] [0] [1] [] []
  dot_S1x3_S3x2097152_S1x2097152_1_0_0_1_n_n_wf : DotDims.WF S1x3 S3x2097152 S1x2097152 [1] [0] [0] [1] [] []
  dot_S4096x256_S256x128_S4096x128_1_0_0_1_n_n_wf : DotDims.WF S4096x256 S256x128 S4096x128 [1] [0] [0] [1] [] []
  dot_S8192x256_S256x128_S8192x128_1_0_0_1_n_n_wf : DotDims.WF S8192x256 S256x128 S8192x128 [1] [0] [0] [1] [] []
  dot_S4096x256_S256x1_S4096x1_1_0_0_1_n_n_wf : DotDims.WF S4096x256 S256x1 S4096x1 [1] [0] [0] [1] [] []
  dot_S8192x256_S256x1_S8192x1_1_0_0_1_n_n_wf : DotDims.WF S8192x256 S256x1 S8192x1 [1] [0] [0] [1] [] []

variable [Facts₀]

def dot_S1x3_S3x1048576_S1x1048576_1_0_0_1_n_n : DotDims S1x3 S3x1048576 S1x1048576 where
  lhsContracting := [1]
  rhsContracting := [0]
  lhsNonContracting := [0]
  rhsNonContracting := [1]
  lhsBatch := []
  rhsBatch := []
  wf := dot_S1x3_S3x1048576_S1x1048576_1_0_0_1_n_n_wf
def dot_S1x3_S3x2097152_S1x2097152_1_0_0_1_n_n : DotDims S1x3 S3x2097152 S1x2097152 where
  lhsContracting := [1]
  rhsContracting := [0]
  lhsNonContracting := [0]
  rhsNonContracting := [1]
  lhsBatch := []
  rhsBatch := []
  wf := dot_S1x3_S3x2097152_S1x2097152_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.KernelRun.lean ====
/-
  The kernel program's run with its result named: every weakly fair execution of the three regions and the host
  operations between them terminates, nothing faulting, with the result buffer at the contents the last region's
  write-backs leave (the last boundary's contents, read at the result's reference) and the argument arrays as launched.
  The launch over the program's segments is the library's; what is read off its last thread state here is one more
  buffer than the frame reads.
-/
import proofs.«100230_j30064771072071_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Hand

end
-- ==== Proof.Spec.lean ====
/-
  The value both programs compute, stated once over the extended reals, index by index.

  Each of the two node sets has three feature views x, y, z (R rows of 256 features), mixed by three weights a₀, a₁, a₂ into
  a₀·x + a₁·y + a₂·z; the mix is projected by a 256×128 matrix w; the 128 projected features are laid beside 128 further
  features h of the same row; and the 256 features so obtained are contracted with a column v of 256 weights: one number
  per row, its SCORE. The result at (i, j) is the activation x ↦ x · tanh (softplus x) of the sum of row i's score in
  the first set and row j's score in the second, where softplus x = max x 0 + log (1 + exp (−|x|)).

  Every sum here is a finite sum of the extended reals, which form a commutative additive monoid: no order or grouping of
  a sum matters, and no finiteness of the inputs is used anywhere.
-/
import Idealize.ShloMosaic.PureOps.Ideal
import Idealize.ShloMosaic.PureOps.Ideal.Laws
import Idealize.ShloMosaic.Lib.ValueIdx

noncomputable section

namespace Cert.PairScore

open Idealize.ShloMosaic Idealize.ShloMosaic.ValueIdx

/-- An r×c matrix of extended reals, as the programs' float arrays are at the ideal values. -/
abbrev Mat (r c : ℕ) : Type := FVec Ideal ⟨2, ![r, c]⟩ .f32

variable {R : ℕ}

/-- The three views mixed entry by entry with the weights a (0, 0), a (0, 1), a (0, 2). -/
def mixed (a : Mat 1 3) (x y z : Mat R 256) : Mat R 256 := fun i =>
  a (ix2 0 0) * x i + a (ix2 0 1) * y i + a (ix2 0 2) * z i

/-- Feature k of row n: for k < 128 the mix's row n projected on column k of w, otherwise entry k − 128 of h's row n. -/
def feat (hm : Mat R 256) (h : Mat R 128) (w : Mat 256 128) (n : Fin R) (k : Fin 256) : EReal :=
  if hk : k.val < 128 then ∑ j : Fin 256, hm (ix2 n j) * w (ix2 j ⟨k.val, hk⟩)
  else h (ix2 n ⟨k.val - 128, by have := k.isLt; omega⟩)

/-- Row n's score: its 256 features contracted with the column v. -/
def score (hm : Mat R 256) (h : Mat R 128) (w : Mat 256 128) (v : Mat 256 1) (n : Fin R) : EReal :=
  ∑ k : Fin 256, feat hm h w n k * v (ix2 k 0)

/-- The scores as a column. -/
def scoreCol (hm : Mat R 256) (h : Mat R 128) (w : Mat 256 128) (v : Mat 256 1) : Mat R 1 := fun i =>
  score hm h w v ⟨(i 0).val, idx2_lt0 i⟩

theorem scoreCol_apply (hm : Mat R 256) (h : Mat R 128) (w : Mat 256 128) (v : Mat 256 1) (n : Fin R) (u : Fin 1) :
    scoreCol hm h w v (ix2 n u) = score hm h w v n := rfl

/-- A row's score reads only that row of the mix and of h: two pairs of matrices that agree on a row of each give that
    row the same score (a block of rows scores as the whole array does). -/
theorem score_congr {R' : ℕ} (hm : Mat R 256) (h : Mat R 128) (hm' : Mat R' 256) (h' : Mat R' 128) (w : Mat 256 128)
    (v : Mat 256 1) (n : Fin R) (n' : Fin R') (e1 : ∀ j : Fin 256, hm (ix2 n j) = hm' (ix2 n' j))
    (e2 : ∀ k : Fin 128, h (ix2 n k) = h' (ix2 n' k)) : score hm h w v n = score hm' h' w v n' := by
  unfold score feat
  refine Finset.sum_congr rfl fun k _ => ?_
  split
  · rw [Finset.sum_congr rfl fun j _ => by rw [e1 j]]
  · rw [e2]

/-- The first and the second half of a column of 512 weights. -/
def lowHalf (a : Mat 512 1) : Mat 256 1 := fun i => a (ix2 ⟨(i 0).val, by have := idx2_lt0 i; omega⟩ 0)
def highHalf (a : Mat 512 1) : Mat 256 1 := fun i => a (ix2 ⟨256 + (i 0).val, by have := idx2_lt0 i; omega⟩ 0)

/-- x · tanh (softplus x), with softplus x = max x 0 + log (1 + exp (−|x|)) and |x| = max x (−x). -/
def act (x : EReal) : EReal := x * Ideal.tanh (max x 0 + Ideal.log1p (Ideal.exp (-(max x (-x)))))

/-- The activation of every sum of an entry of the column P and an entry of the column Q. -/
def outer {A B : ℕ} (P : Mat A 1) (Q : Mat B 1) : Mat A B := fun i =>
  act (P (ix2 ⟨(i 0).val, idx2_lt0 i⟩ 0) + Q (ix2 ⟨(i 1).val, idx2_lt1 i⟩ 0))

theorem outer_apply {A B : ℕ} (P : Mat A 1) (Q : Mat B 1) (p : Fin A) (q : Fin B) :
    outer P Q (ix2 p q) = act (P (ix2 p 0) + Q (ix2 q 0)) := rfl

/-- The same with the second operand given as a row: the activation of every sum of an entry of the column P and an entry
    of the row Q. -/
def rowcol {A B : ℕ} (P : Mat A 1) (Q : Mat 1 B) : Mat A B := fun i =>
  act (P (ix2 ⟨(i 0).val, idx2_lt0 i⟩ 0) + Q (ix2 0 ⟨(i 1).val, idx2_lt1 i⟩))

theorem rowcol_apply {A B : ℕ} (P : Mat A 1) (Q : Mat 1 B) (p : Fin A) (q : Fin B) :
    rowcol P Q (ix2 p q) = act (P (ix2 p 0) + Q (ix2 0 q)) := rfl

/-- The whole result from the thirteen argument arrays. -/
def result (m m1 m2 : Mat 4096 256) (mh : Mat 4096 128) (d d1 d2 : Mat 8192 256) (dh : Mat 8192 128)
    (wm wd : Mat 256 128) (am ad : Mat 1 3) (a : Mat 512 1) : Mat 4096 8192 :=
  outer (scoreCol (mixed am m m1 m2) mh wm (lowHalf a)) (scoreCol (mixed ad d d1 d2) dh wd (highHalf a))

/-! ## The activation as each program spells it

Both programs compute softplus as jax lowers `logaddexp x 0`: with z the float zero, `max x z + log1p (exp (−|x − z|))`,
guarded by a test `x − z ≠ x − z` for a not-a-number that no extended real passes (then `x + z` would be taken). The kernel
negates by `z − ·`, the host by `−·`, and the two tests are spelt with different predicates that read the same on a
linear order. Since z = 0, all of it is `act`. -/

theorem act_kernel (x : EReal) :
    x * Ideal.tanh (Scalar.select
        (Ideal.cmp .one (x - Ideal.ofBits .f32 0x00000000#32) (x - Ideal.ofBits .f32 0x00000000#32))
        (x + Ideal.ofBits .f32 0x00000000#32)
        (max x (Ideal.ofBits .f32 0x00000000#32) + Ideal.log1p (Ideal.exp (Ideal.ofBits .f32 0x00000000#32
          - max (x - Ideal.ofBits .f32 0x00000000#32) (-(x - Ideal.ofBits .f32 0x00000000#32)))))) = act x := by
  have hc : Ideal.cmp .one x x = 0#1 := by simp [Ideal.cmp]
  rw [Ideal.ofBits_zero_f32, sub_zero, hc, select_zero, zero_sub]
  rfl

theorem act_host (x : EReal) :
    x * Ideal.tanh (Scalar.select
        (Ideal.cmp .une (x - Ideal.ofBits .f32 0x00000000#32) (x - Ideal.ofBits .f32 0x00000000#32))
        (x + Ideal.ofBits .f32 0x00000000#32)
        (max x (Ideal.ofBits .f32 0x00000000#32) + Ideal.log1p (Ideal.exp
          (-(max (x - Ideal.ofBits .f32 0x00000000#32) (-(x - Ideal.ofBits .f32 0x00000000#32))))))) = act x := by
  have hc : Ideal.cmp .une x x = 0#1 := by simp [Ideal.cmp]
  rw [Ideal.ofBits_zero_f32, sub_zero, hc, select_zero]
  rfl

end Cert.PairScore

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.ScoreOps.lean ====
/-
  A row's score as the two programs compute it: a matrix product into 128 columns, laid beside 128 further columns, and
  the 256 columns contracted with a column of weights — on the kernel's matrix unit (into zero accumulators) and as the
  host's products. Read at row p, both are `score`: the second product is the sum over the 256 features, and feature k of
  the concatenation is the first product's column k below 128 and column k − 128 of the second piece from 128 on.
  Also: the three views mixed, read at an entry, in the kernel's spelling; and the halves of the weight column as slices.
-/
import proofs.«100230_j30064771072071_1_alg».proof.Proof.Spec
import proofs.«100230_j30064771072071_1_alg».proof.Proof.LibContractPlain
import Idealize.ShloMosaic.Lib.Pipeline.Value
import Idealize.ShloMosaic.Lib.ValueLayout

noncomputable section

namespace Cert.PairScore

open Idealize.ShloMosaic Idealize.ShloMosaic.ValueIdx

variable {R : ℕ}

/-- Feature k of row p of a product laid beside a second piece. -/
theorem concat_feat (hc : Shape.Concatenates [⟨2, ![R, 128]⟩, ⟨2, ![R, 128]⟩] ⟨2, ![R, 256]⟩ 1)
    (g : Mat R 128) (h : Mat R 128) (p : Fin R) (k : Fin 256) :
    concatenate (⟨2, ![R, 256]⟩ : Shape) 1 [⟨⟨2, ![R, 128]⟩, g⟩, ⟨⟨2, ![R, 128]⟩, h⟩] hc (ix2 p k)
      = if hk : k.val < 128 then g (ix2 p ⟨k.val, hk⟩) else h (ix2 p ⟨k.val - 128, by have := k.isLt; omega⟩) := by
  split
  · rename_i hk
    refine concatenate_pair_apply_left 1 g h hc (ix2 p k) rfl (ix2 p ⟨k.val, hk⟩) fun b => ?_
    match b with
    | ⟨0, _⟩ => rfl
    | ⟨1, _⟩ => rfl
  · rename_i hk
    refine concatenate_pair_apply_right 1 g h hc (ix2 p k) rfl rfl (ix2 p ⟨k.val - 128, by have := k.isLt; omega⟩)
      (fun b hb => ?_) ?_
    · match b with
      | ⟨0, _⟩ => rfl
      | ⟨1, _⟩ => exact absurd rfl hb
    · show k.val - 128 + 128 = k.val
      omega

/-- On the matrix unit: the product into zeros, laid beside h, contracted with v into zeros, at row p. -/
theorem matmul_score (D1 : DotDims ⟨2, ![R, 256]⟩ ⟨2, ![256, 128]⟩ ⟨2, ![R, 128]⟩) (hD1 : D1 = DotDims.plain R 256 128)
    (D2 : DotDims ⟨2, ![R, 256]⟩ ⟨2, ![256, 1]⟩ ⟨2, ![R, 1]⟩) (hD2 : D2 = DotDims.plain R 256 1)
    (hc : Shape.Concatenates [⟨2, ![R, 128]⟩, ⟨2, ![R, 128]⟩] ⟨2, ![R, 256]⟩ 1)
    (hm : Mat R 256) (h : Mat R 128) (w : Mat 256 128) (v : Mat 256 1) (p : Fin R) :
    matmul D2 none (concatenate (⟨2, ![R, 256]⟩ : Shape) 1
        [⟨⟨2, ![R, 128]⟩, matmul D1 none hm w (constant (F := Ideal) ⟨2, ![R, 128]⟩ .f32 0x00000000#32)⟩, ⟨⟨2, ![R, 128]⟩, h⟩] hc)
      v (constant (F := Ideal) ⟨2, ![R, 1]⟩ .f32 0x00000000#32) (ix2 p (0 : Fin 1)) = score hm h w v p := by
  rw [Cert.Lib.ContractPlain.matmulZero_apply D2 hD2]
  unfold score feat
  refine Finset.sum_congr rfl fun k _ => ?_
  rw [concat_feat]
  split
  · rw [Cert.Lib.ContractPlain.matmulZero_apply D1 hD1]
  · rfl

/-- On the host: the same with the host's products. -/
theorem host_score (D1 : DotDims ⟨2, ![R, 256]⟩ ⟨2, ![256, 128]⟩ ⟨2, ![R, 128]⟩) (hD1 : D1 = DotDims.plain R 256 128)
    (D2 : DotDims ⟨2, ![R, 256]⟩ ⟨2, ![256, 1]⟩ ⟨2, ![R, 1]⟩) (hD2 : D2 = DotDims.plain R 256 1)
    (hc : Shape.Concatenates [⟨2, ![R, 128]⟩, ⟨2, ![R, 128]⟩] ⟨2, ![R, 256]⟩ 1)
    (hm : Mat R 256) (h : Mat R 128) (w : Mat 256 128) (v : Mat 256 1) (p : Fin R) :
    Host.dotGeneral D2 none (concatenate (⟨2, ![R, 256]⟩ : Shape) 1
        [⟨⟨2, ![R, 128]⟩, Host.dotGeneral D1 none hm w⟩, ⟨⟨2, ![R, 128]⟩, h⟩] hc)
      v (ix2 p (0 : Fin 1)) = score hm h w v p := by
  rw [Cert.Lib.ContractPlain.hostDot_apply D2 hD2]
  unfold score feat
  refine Finset.sum_congr rfl fun k _ => ?_
  rw [concat_feat]
  split
  · rw [Cert.Lib.ContractPlain.hostDot_apply D1 hD1]
  · rfl

/-- The kernel's spelling of the mix: each weight repeated over the block, multiplied in, the three products added in order. -/
theorem mixed_kernel (a : Mat 1 3) (x y z : Mat R 256) :
    addf (addf (mulf (broadcast (⟨2, ![R, 256]⟩ : Shape) (a (ix2 0 0))) x) (mulf (broadcast (⟨2, ![R, 256]⟩ : Shape) (a (ix2 0 1))) y))
      (mulf (broadcast (⟨2, ![R, 256]⟩ : Shape) (a (ix2 0 2))) z) = mixed a x y z := rfl

/-- The first 256 rows of the weight column, as a slice. -/
theorem slice_lowHalf (a : Mat 512 1) (hs : (⟨2, ![512, 1]⟩ : Shape).Slices ![0, 0] ⟨2, ![256, 1]⟩) :
    extractStridedSlice (⟨2, ![256, 1]⟩ : Shape) ![0, 0] a hs = lowHalf a := by
  funext i
  obtain ⟨j, e, rfl⟩ : ∃ (j : Fin 256) (e : Fin 1), i = ix2 j e := ⟨i 0, i 1, eq_ix2 i⟩
  have he : e = 0 := Subsingleton.elim _ _
  subst he
  exact slice2_axis0_apply 0 a hs j 0 ⟨j.val, by have := j.isLt; omega⟩ (Nat.zero_add _).symm

/-- The last 256 rows of the weight column, as a slice. -/
theorem slice_highHalf (a : Mat 512 1) (hs : (⟨2, ![512, 1]⟩ : Shape).Slices ![256, 0] ⟨2, ![256, 1]⟩) :
    extractStridedSlice (⟨2, ![256, 1]⟩ : Shape) ![256, 0] a hs = highHalf a := by
  funext i
  obtain ⟨j, e, rfl⟩ : ∃ (j : Fin 256) (e : Fin 1), i = ix2 j e := ⟨i 0, i 1, eq_ix2 i⟩
  have he : e = 0 := Subsingleton.elim _ _
  subst he
  exact slice2_axis0_apply 256 a hs j 0 ⟨256 + j.val, by have := j.isLt; omega⟩ rfl

end Cert.PairScore

end
-- ==== Proof.Body01.lean ====
/-
  What the first two kernels' bodies leave in their output blocks, entry by entry: a block of B rows (B = 512 for the
  first node set, 1024 for the second) of the three views and of the further features, the whole projection matrix, the
  whole column of 256 weights and the three mixing weights give, at row p of the block, that row's score.
  The three mixing weights are read out of the 1×3 block one entry at a time.
-/
import proofs.«100230_j30064771072071_1_alg».proof.Proof.Gen.KernelIdeal.Frame
import proofs.«100230_j30064771072071_1_alg».proof.Proof.ScoreOps

noncomputable section

namespace Cert.KernelIdeal.Hand

open Idealize.ShloMosaic Idealize.ShloMosaic.ValueIdx Cert.KernelIdeal Cert.KernelIdeal.Gen Cert.PairScore

theorem hz01 : (![0, 0] : Fin 2 → Nat) = fun _ => 0 := funext fun a => by fin_cases a <;> rfl

/-- The 1×1 pieces of the 1×3 block of mixing weights, read out: entries (0, 0), (0, 1), (0, 2). -/
theorem weight_0 (x6 : Vec Ideal S1x3 .f32) :
    extractAt (s := S1x1) ![0, 0] (View.ld x6 (Rect.unit (s := S1x3) ![0, 0] S1x1.size Facts₀.inb_S1x3_S1x1_0_0)) Facts₀.inpos_S1x1_p0_0 = x6 (ix2 0 0) :=
  congrArg x6 (funext fun a => Fin.ext (by match a with | ⟨0, _⟩ => rfl | ⟨1, _⟩ => rfl))
theorem weight_1 (x6 : Vec Ideal S1x3 .f32) :
    extractAt (s := S1x1) ![0, 0] (View.ld x6 (Rect.unit (s := S1x3) ![0, 1] S1x1.size Facts₀.inb_S1x3_S1x1_0_1)) Facts₀.inpos_S1x1_p0_0 = x6 (ix2 0 1) :=
  congrArg x6 (funext fun a => Fin.ext (by match a with | ⟨0, _⟩ => rfl | ⟨1, _⟩ => rfl))
theorem weight_2 (x6 : Vec Ideal S1x3 .f32) :
    extractAt (s := S1x1) ![0, 0] (View.ld x6 (Rect.unit (s := S1x3) ![0, 2] S1x1.size Facts₀.inb_S1x3_S1x1_0_2)) Facts₀.inpos_S1x1_p0_0 = x6 (ix2 0 2) :=
  congrArg x6 (funext fun a => Fin.ext (by match a with | ⟨0, _⟩ => rfl | ⟨1, _⟩ => rfl))

/-- The first kernel's stored value at row p of its block. -/
theorem pay0_apply (x0 x1 x2 : FVec Ideal S512x256 .f32) (x3 : FVec Ideal S512x128 .f32) (x4 : FVec Ideal S256x128 .f32)
    (x5 : FVec Ideal S256x1 .f32) (x6 : Vec Ideal S1x3 .f32) (p : Fin 512) :
    k0_pay1 (F := Ideal) (View.ld x6 r0_0) (View.ld x6 r0_1) (View.ld x6 r0_2) x0 x1 x2 x4 x3 x5 (ix2 p 0)
      = score (mixed x6 x0 x1 x2) x3 x4 x5 p := by
  unfold k0_pay1
  refine (matmul_score dot_S512x256_S256x128_S512x128_1_0_0_1_n_n rfl dot_S512x256_S256x1_S512x1_1_0_0_1_n_n rfl
    Facts₀.concatenates_S512x128_S512x128_S512x256_d1 _ x3 x4 _ p).trans ?_
  rw [shapeCast_self]
  refine score_congr _ _ _ _ _ _ p p (fun j => ?_) (fun k => rfl)
  unfold mixed
  rw [addf_apply, addf_apply, mulf_apply, mulf_apply, mulf_apply, broadcast_apply, broadcast_apply, broadcast_apply,
    weight_0, weight_1, weight_2]

/-- The first kernel's output block after the body, at row p. -/
theorem out0_7_apply (x0 x1 x2 : FVec Ideal S512x256 .f32) (x3 : FVec Ideal S512x128 .f32) (x4 : FVec Ideal S256x128 .f32)
    (x5 : FVec Ideal S256x1 .f32) (x6 : Vec Ideal S1x3 .f32) (p : Fin 512) :
    out0_7 (F := Ideal) x0 x1 x2 x3 x4 x5 x6 (ix2 p 0) = score (mixed x6 x0 x1 x2) x3 x4 x5 p := by
  unfold out0_7
  rw [View.canon_unit_zero hz01]
  simp only [View.ld_unit_zero (S := S512x256) hz01, View.ld_unit_zero (S := S512x128) hz01,
    View.ld_unit_zero (S := S256x128) hz01, View.ld_unit_zero (S := S256x1) hz01]
  exact pay0_apply x0 x1 x2 x3 x4 x5 x6 p

/-- The second kernel's stored value at row p of its block. -/
theorem pay1_apply (x0 x1 x2 : FVec Ideal S1024x256 .f32) (x3 : FVec Ideal S1024x128 .f32) (x4 : FVec Ideal S256x128 .f32)
    (x5 : FVec Ideal S256x1 .f32) (x6 : Vec Ideal S1x3 .f32) (p : Fin 1024) :
    k1_pay1 (F := Ideal) (View.ld x6 r1_0) (View.ld x6 r1_1) (View.ld x6 r1_2) x0 x1 x2 x4 x3 x5 (ix2 p 0)
      = score (mixed x6 x0 x1 x2) x3 x4 x5 p := by
  unfold k1_pay1
  refine (matmul_score dot_S1024x256_S256x128_S1024x128_1_0_0_1_n_n rfl dot_S1024x256_S256x1_S1024x1_1_0_0_1_n_n rfl
    Facts₀.concatenates_S1024x128_S1024x128_S1024x256_d1 _ x3 x4 _ p).trans ?_
  rw [shapeCast_self]
  refine score_congr _ _ _ _ _ _ p p (fun j => ?_) (fun k => rfl)
  unfold mixed
  rw [addf_apply, addf_apply, mulf_apply, mulf_apply, mulf_apply, broadcast_apply, broadcast_apply, broadcast_apply,
    weight_0, weight_1, weight_2]

/-- The second kernel's output block after the body, at row p. -/
theorem out1_7_apply (x0 x1 x2 : FVec Ideal S1024x256 .f32) (x3 : FVec Ideal S1024x128 .f32) (x4 : FVec Ideal S256x128 .f32)
    (x5 : FVec Ideal S256x1 .f32) (x6 : Vec Ideal S1x3 .f32) (p : Fin 1024) :
    out1_7 (F := Ideal) x0 x1 x2 x3 x4 x5 x6 (ix2 p 0) = score (mixed x6 x0 x1 x2) x3 x4 x5 p := by
  unfold out1_7
  rw [View.canon_unit_zero hz01]
  simp only [View.ld_unit_zero (S := S1024x256) hz01, View.ld_unit_zero (S := S1024x128) hz01,
    View.ld_unit_zero (S := S256x128) hz01, View.ld_unit_zero (S := S256x1) hz01]
  exact pay1_apply x0 x1 x2 x3 x4 x5 x6 p

end Cert.KernelIdeal.Hand

end
-- ==== Proof.Region0.lean ====
/-
  The first kernel's result array after its run: the column of the 4096 rows' scores.

  The grid has 8 points; point t works on rows 512·t … 512·t + 511 of the three views and of the further features and
  on the whole of the projection matrix, the weight column and the mixing weights, and writes back rows 512·t … of the
  result. A row's score reads only that row, so what point t writes back is its block of the whole column of scores;
  the 8 blocks cover the 4096 rows.
-/
import proofs.«100230_j30064771072071_1_alg».proof.Proof.Gen.KernelIdeal.Frame
import proofs.«100230_j30064771072071_1_alg».proof.Proof.Body01
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen Cert.PairScore
open Idealize.ShloMosaic.Pipeline (Dat)

variable (V : (c : Dev nD) → (b : Ref sig .tc) → Buf (Elt Ideal) ((c : Thread nD τ).loc b))

/-- The column of scores of the first node set, from the arrays as the region finds them. -/
def scores0 (c : Dev nD) : Mat 4096 1 :=
  scoreCol (mixed (V c main_arg10) (V c main_arg0) (V c main_arg1) (V c main_arg2)) (V c main_arg3) (V c main_arg8) (V c main_v0)

/-- The printed index maps, decided over the grid: the row-blocked windows move with the output's block on the rows'
    axis, every window sits at block 0 on its second axis, and the whole-array windows at block 0 on both. -/
theorem idx0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = win0_7.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 7 ∧ win0_7.index t (1 : Fin 2) = 0 :=
  (by decide +kernel : ∀ t : Fin grid0.N, _)

/-- Every block of rows is some point's. -/
theorem onto0 : ∀ q : Fin 8, ∃ t : Fin cfg0.N, win0_7.index t = ![q.val, 0] :=
  (by decide +kernel : ∀ q : Fin 8, ∃ t : Fin grid0.N, win0_7.index t = ![q.val, 0])

/-! Each input window's block at point t, read at an entry: the array's entry at block index × block size + the entry's
    coordinate, axis by axis. -/

theorem blk0_0 (c : Dev nD) (t : Fin cfg0.N) (y : S512x256.Idx) (i : S4096x256.Idx)
    (h0 : win0_0.index t (0 : Fin 2) * 512 + (y 0).val = (i 0).val) (h1 : win0_0.index t (1 : Fin 2) * 256 + (y 1).val = (i 1).val) :
    (iblk0 V c 0 t : FVec Ideal S512x256 .f32) y = (V c main_arg0 : FVec Ideal S4096x256 .f32) i := by
  unfold iblk0
  rw [View.read_apply]
  show V c main_arg0 _ = V c main_arg0 _
  congr 1
  funext a
  apply Fin.ext
  match a with
  | ⟨0, _⟩ => show win0_0.index t (0 : Fin 2) * 512 + 1 * (y 0).val = (i 0).val; omega
  | ⟨1, _⟩ => show win0_0.index t (1 : Fin 2) * 256 + 1 * (y 1).val = (i 1).val; omega

theorem blk0_1 (c : Dev nD) (t : Fin cfg0.N) (y : S512x256.Idx) (i : S4096x256.Idx)
    (h0 : win0_1.index t (0 : Fin 2) * 512 + (y 0).val = (i 0).val) (h1 : win0_1.index t (1 : Fin 2) * 256 + (y 1).val = (i 1).val) :
    (iblk0 V c 1 t : FVec Ideal S512x256 .f32) y = (V c main_arg1 : FVec Ideal S4096x256 .f32) i := by
  unfold iblk0
  rw [View.read_apply]
  show V c main_arg1 _ = V c main_arg1 _
  congr 1
  funext a
  apply Fin.ext
  match a with
  | ⟨0, _⟩ => show win0_1.index t (0 : Fin 2) * 512 + 1 * (y 0).val = (i 0).val; omega
  | ⟨1, _⟩ => show win0_1.index t (1 : Fin 2) * 256 + 1 * (y 1).val = (i 1).val; omega

theorem blk0_2 (c : Dev nD) (t : Fin cfg0.N) (y : S512x256.Idx) (i : S4096x256.Idx)
    (h0 : win0_2.index t (0 : Fin 2) * 512 + (y 0).val = (i 0).val) (h1 : win0_2.index t (1 : Fin 2) * 256 + (y 1).val = (i 1).val) :
    (iblk0 V c 2 t : FVec Ideal S512x256 .f32) y = (V c main_arg2 : FVec Ideal S4096x256 .f32) i := by
  unfold iblk0
  rw [View.read_apply]
  show V c main_arg2 _ = V c main_arg2 _
  congr 1
  funext a
  apply Fin.ext
  match a with
  | ⟨0, _⟩ => show win0_2.index t (0 : Fin 2) * 512 + 1 * (y 0).val = (i 0).val; omega
  | ⟨1, _⟩ => show win0_2.index t (1 : Fin 2) * 256 + 1 * (y 1).val = (i 1).val; omega

theorem blk0_3 (c : Dev nD) (t : Fin cfg0.N) (y : S512x128.Idx) (i : S4096x128.Idx)
    (h0 : win0_3.index t (0 : Fin 2) * 512 + (y 0).val = (i 0).val) (h1 : win0_3.index t (1 : Fin 2) * 128 + (y 1).val = (i 1).val) :
    (iblk0 V c 3 t : FVec Ideal S512x128 .f32) y = (V c main_arg3 : FVec Ideal S4096x128 .f32) i := by
  unfold iblk0
  rw [View.read_apply]
  show V c main_arg3 _ = V c main_arg3 _
  congr 1
  funext a
  apply Fin.ext
  match a with
  | ⟨0, _⟩ => show win0_3.index t (0 : Fin 2) * 512 + 1 * (y 0).val = (i 0).val; omega
  | ⟨1, _⟩ => show win0_3.index t (1 : Fin 2) * 128 + 1 * (y 1).val = (i 1).val; omega

/-- The projection matrix's one block is the matrix. -/
theorem blk0_4 (c : Dev nD) (t : Fin cfg0.N) : (iblk0 V c 4 t : FVec Ideal S256x128 .f32) = (V c main_arg8 : FVec Ideal S256x128 .f32) := by
  obtain ⟨-, -, -, -, -, -, -, -, e0, e1, -⟩ := idx0 t
  funext y
  unfold iblk0
  rw [View.read_apply]
  show V c main_arg8 _ = V c main_arg8 _
  congr 1
  funext a
  apply Fin.ext
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- The weight column's one block is the column. -/
theorem blk0_5 (c : Dev nD) (t : Fin cfg0.N) : (iblk0 V c 5 t : FVec Ideal S256x1 .f32) = (V c main_v0 : FVec Ideal S256x1 .f32) := by
  obtain ⟨-, -, -, -, -, -, -, -, -, -, e0, e1, -⟩ := idx0 t
  funext y
  unfold iblk0
  rw [View.read_apply]
  show V c main_v0 _ = V c main_v0 _
  congr 1
  funext a
  apply Fin.ext
  match a with
  | ⟨0, _⟩ => show win0_5.index t (0 : Fin 2) * 256 + 1 * (y 0).val = (y 0).val; omega
  | ⟨1, _⟩ => show win0_5.index t (1 : Fin 2) * 1 + 1 * (y 1).val = (y 1).val; omega

/-- The mixing weights' one block is the 1×3 array. -/
theorem blk0_6 (c : Dev nD) (t : Fin cfg0.N) : (iblk0 V c 6 t : FVec Ideal S1x3 .f32) = (V c main_arg10 : FVec Ideal S1x3 .f32) := by
  obtain ⟨-, -, -, -, -, -, -, -, -, -, -, -, e0, e1, -⟩ := idx0 t
  funext y
  unfold iblk0
  rw [View.read_apply]
  show V c main_arg10 _ = V c main_arg10 _
  congr 1
  funext a
  apply Fin.ext
  match a with
  | ⟨0, _⟩ => show win0_6.index t (0 : Fin 2) * 1 + 1 * (y 0).val = (y 0).val; omega
  | ⟨1, _⟩ => show win0_6.index t (1 : Fin 2) * 3 + 1 * (y 1).val = (y 1).val; omega

/-- What point t leaves in the output's staging buffer, at row p: the score of row 512·(block index) + p. -/
theorem after0_apply (c : Dev nD) (t : Fin cfg0.N) (p : Fin 512) (n : Fin 4096)
    (hn : win0_7.index t (0 : Fin 2) * 512 + p.val = n.val) :
    out0_7 (F := Ideal) (iblk0 V c 0 t) (iblk0 V c 1 t) (iblk0 V c 2 t) (iblk0 V c 3 t) (iblk0 V c 4 t) (iblk0 V c 5 t) (iblk0 V c 6 t) (ix2 p 0)
      = scores0 V c (ix2 n 0) := by
  obtain ⟨e00, e01, e10, e11, e20, e21, e30, e31, -⟩ := idx0 t
  refine (out0_7_apply (iblk0 V c 0 t) (iblk0 V c 1 t) (iblk0 V c 2 t) (iblk0 V c 3 t) (iblk0 V c 4 t) (iblk0 V c 5 t) (iblk0 V c 6 t) p).trans ?_
  rw [blk0_4 V c t, blk0_5 V c t, blk0_6 V c t]
  unfold scores0
  rw [scoreCol_apply]
  refine score_congr _ _ _ _ _ _ p n (fun j => ?_) (fun k => ?_)
  · unfold mixed
    rw [blk0_0 V c t (ix2 p j) (ix2 n j) (by show _ * 512 + p.val = n.val; omega) (by show _ * 256 + j.val = j.val; omega),
      blk0_1 V c t (ix2 p j) (ix2 n j) (by show _ * 512 + p.val = n.val; omega) (by show _ * 256 + j.val = j.val; omega),
      blk0_2 V c t (ix2 p j) (ix2 n j) (by show _ * 512 + p.val = n.val; omega) (by show _ * 256 + j.val = j.val; omega)]
  · exact blk0_3 V c t (ix2 p k) (ix2 n k) (by show _ * 512 + p.val = n.val; omega) (by show _ * 128 + k.val = k.val; omega)

/-- WHAT POINT t WRITES BACK is its block of the column of scores. -/
theorem flushed0 (c : Dev nD) (t : Fin cfg0.N) :
    (dat0 V c).flushed 7 t = ((cfg0.win 7).blk t).view.read (Elt Ideal) (scores0 V c) := by
  show (cfg0.win 7).cut (grid0.coords t) ((dat0 V c).after 7 t) = _
  rw [after0_7]
  obtain ⟨-, -, -, -, -, -, -, -, -, -, -, -, -, -, hb, e71⟩ := idx0 t
  have key : ∀ y : S512x1.Idx,
      out0_7 (F := Ideal) (iblk0 V c 0 t) (iblk0 V c 1 t) (iblk0 V c 2 t) (iblk0 V c 3 t) (iblk0 V c 4 t) (iblk0 V c 5 t) (iblk0 V c 6 t) y
        = scores0 V c (((cfg0.win 7).blk t).view.emb y) := by
    intro y
    obtain ⟨p, u, rfl⟩ : ∃ (p : Fin 512) (u : Fin 1), y = ix2 p u := ⟨y 0, y 1, eq_ix2 y⟩
    obtain rfl : u = 0 := Subsingleton.elim _ _
    have hp := p.isLt
    have hi : ((cfg0.win 7).blk t).view.emb (ix2 p (0 : Fin 1))
        = (ix2 (⟨win0_7.index t (0 : Fin 2) * 512 + p.val, by omega⟩ : Fin 4096) (0 : Fin 1) : S4096x1.Idx) := by
      funext a
      apply Fin.ext
      match a with
      | ⟨0, _⟩ => show win0_7.index t (0 : Fin 2) * 512 + 1 * p.val = win0_7.index t (0 : Fin 2) * 512 + p.val; omega
      | ⟨1, _⟩ => show win0_7.index t (1 : Fin 2) * 1 + 1 * 0 = 0; omega
    rw [hi]
    exact after0_apply V c t p _ rfl
  funext y
  exact key y

/-- An index of the result is in point t's block iff each coordinate is in the block's range on its axis. -/
theorem mem_blk0 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v2).slice (win0_7.rect t)).set ↔ _
  rw [View.set_slice_whole, Rect.mem_set_unit]
  exact Iff.rfl

/-- THE RESULT ARRAY after the run: the column of scores (row r is in the block of point r / 512). -/
theorem final0 (c : Dev nD) : (dat0 V c).arrAt 7 cfg0.N = scores0 V c :=
  (dat0 V c).arrAt_eq_of_cover 7 (scores0 V c) (fun t _ => flushed0 V c t) fun i => by
    have hi0 : (i 0).val < 4096 := (i 0).isLt
    have hi1 : (i 1).val < 1 := (i 1).isLt
    obtain ⟨t, ht⟩ := onto0 ⟨(i 0).val / 512, by omega⟩
    have q0 : win0_7.index t (0 : Fin 2) = (i 0).val / 512 := congrFun ht 0
    have q1 : win0_7.index t (1 : Fin 2) = 0 := congrFun ht 1
    refine ⟨t, flush0_7 t, ?_⟩
    rw [mem_blk0]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 1 ≤ (i 1).val ∧ (i 1).val < win0_7.index t (1 : Fin 2) * 1 + 1; omega

end Cert.KernelIdeal.Hand

end
-- ==== Proof.Region1.lean ====
/-
  The second kernel's result array after its run: the column of the 8192 rows' scores.

  The grid has 8 points; point t works on rows 1024·t … 1024·t + 1023 of the three views and of the further features
  and on the whole of the projection matrix, the weight column and the mixing weights, and writes back rows 1024·t … of
  the result. A row's score reads only that row, so what point t writes back is its block of the whole column of
  scores; the 8 blocks cover the 8192 rows.
-/
import proofs.«100230_j30064771072071_1_alg».proof.Proof.Gen.KernelIdeal.Frame
import proofs.«100230_j30064771072071_1_alg».proof.Proof.Body01
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen Cert.PairScore
open Idealize.ShloMosaic.Pipeline (Dat)

variable (V : (c : Dev nD) → (b : Ref sig .tc) → Buf (Elt Ideal) ((c : Thread nD τ).loc b))

/-- The column of scores of the second node set, from the arrays as the region finds them. -/
def scores1 (c : Dev nD) : Mat 8192 1 :=
  scoreCol (mixed (V c main_arg11) (V c main_arg4) (V c main_arg5) (V c main_arg6)) (V c main_arg7) (V c main_arg9) (V c main_v1)

/-- The printed index maps, decided over the grid: the row-blocked windows move with the output's block on the rows'
    axis, every window sits at block 0 on its second axis, and the whole-array windows at block 0 on both. -/
theorem idx1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = win1_7.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 7 ∧ win1_7.index t (1 : Fin 2) = 0 :=
  (by decide +kernel : ∀ t : Fin grid1.N, _)

/-- Every block of rows is some point's. -/
theorem onto1 : ∀ q : Fin 8, ∃ t : Fin cfg1.N, win1_7.index t = ![q.val, 0] :=
  (by decide +kernel : ∀ q : Fin 8, ∃ t : Fin grid1.N, win1_7.index t = ![q.val, 0])

/-! Each input window's block at point t, read at an entry: the array's entry at block index × block size + the entry's
    coordinate, axis by axis. -/

theorem blk1_0 (c : Dev nD) (t : Fin cfg1.N) (y : S1024x256.Idx) (i : S8192x256.Idx)
    (h0 : win1_0.index t (0 : Fin 2) * 1024 + (y 0).val = (i 0).val) (h1 : win1_0.index t (1 : Fin 2) * 256 + (y 1).val = (i 1).val) :
    (iblk1 V c 0 t : FVec Ideal S1024x256 .f32) y = (V c main_arg4 : FVec Ideal S8192x256 .f32) i := by
  unfold iblk1
  rw [View.read_apply]
  show V c main_arg4 _ = V c main_arg4 _
  congr 1
  funext a
  apply Fin.ext
  match a with
  | ⟨0, _⟩ => show win1_0.index t (0 : Fin 2) * 1024 + 1 * (y 0).val = (i 0).val; omega
  | ⟨1, _⟩ => show win1_0.index t (1 : Fin 2) * 256 + 1 * (y 1).val = (i 1).val; omega

theorem blk1_1 (c : Dev nD) (t : Fin cfg1.N) (y : S1024x256.Idx) (i : S8192x256.Idx)
    (h0 : win1_1.index t (0 : Fin 2) * 1024 + (y 0).val = (i 0).val) (h1 : win1_1.index t (1 : Fin 2) * 256 + (y 1).val = (i 1).val) :
    (iblk1 V c 1 t : FVec Ideal S1024x256 .f32) y = (V c main_arg5 : FVec Ideal S8192x256 .f32) i := by
  unfold iblk1
  rw [View.read_apply]
  show V c main_arg5 _ = V c main_arg5 _
  congr 1
  funext a
  apply Fin.ext
  match a with
  | ⟨0, _⟩ => show win1_1.index t (0 : Fin 2) * 1024 + 1 * (y 0).val = (i 0).val; omega
  | ⟨1, _⟩ => show win1_1.index t (1 : Fin 2) * 256 + 1 * (y 1).val = (i 1).val; omega

theorem blk1_2 (c : Dev nD) (t : Fin cfg1.N) (y : S1024x256.Idx) (i : S8192x256.Idx)
    (h0 : win1_2.index t (0 : Fin 2) * 1024 + (y 0).val = (i 0).val) (h1 : win1_2.index t (1 : Fin 2) * 256 + (y 1).val = (i 1).val) :
    (iblk1 V c 2 t : FVec Ideal S1024x256 .f32) y = (V c main_arg6 : FVec Ideal S8192x256 .f32) i := by
  unfold iblk1
  rw [View.read_apply]
  show V c main_arg6 _ = V c main_arg6 _
  congr 1
  funext a
  apply Fin.ext
  match a with
  | ⟨0, _⟩ => show win1_2.index t (0 : Fin 2) * 1024 + 1 * (y 0).val = (i 0).val; omega
  | ⟨1, _⟩ => show win1_2.index t (1 : Fin 2) * 256 + 1 * (y 1).val = (i 1).val; omega

theorem blk1_3 (c : Dev nD) (t : Fin cfg1.N) (y : S1024x128.Idx) (i : S8192x128.Idx)
    (h0 : win1_3.index t (0 : Fin 2) * 1024 + (y 0).val = (i 0).val) (h1 : win1_3.index t (1 : Fin 2) * 128 + (y 1).val = (i 1).val) :
    (iblk1 V c 3 t : FVec Ideal S1024x128 .f32) y = (V c main_arg7 : FVec Ideal S8192x128 .f32) i := by
  unfold iblk1
  rw [View.read_apply]
  show V c main_arg7 _ = V c main_arg7 _
  congr 1
  funext a
  apply Fin.ext
  match a with
  | ⟨0, _⟩ => show win1_3.index t (0 : Fin 2) * 1024 + 1 * (y 0).val = (i 0).val; omega
  | ⟨1, _⟩ => show win1_3.index t (1 : Fin 2) * 128 + 1 * (y 1).val = (i 1).val; omega

/-- The projection matrix's one block is the matrix. -/
theorem blk1_4 (c : Dev nD) (t : Fin cfg1.N) : (iblk1 V c 4 t : FVec Ideal S256x128 .f32) = (V c main_arg9 : FVec Ideal S256x128 .f32) := by
  obtain ⟨-, -, -, -, -, -, -, -, e0, e1, -⟩ := idx1 t
  funext y
  unfold iblk1
  rw [View.read_apply]
  show V c main_arg9 _ = V c main_arg9 _
  congr 1
  funext a
  apply Fin.ext
  match a with
  | ⟨0, _⟩ => show win1_4.index t (0 : Fin 2) * 256 + 1 * (y 0).val = (y 0).val; omega
  | ⟨1, _⟩ => show win1_4.index t (1 : Fin 2) * 128 + 1 * (y 1).val = (y 1).val; omega

/-- The weight column's one block is the column. -/
theorem blk1_5 (c : Dev nD) (t : Fin cfg1.N) : (iblk1 V c 5 t : FVec Ideal S256x1 .f32) = (V c main_v1 : FVec Ideal S256x1 .f32) := by
  obtain ⟨-, -, -, -, -, -, -, -, -, -, e0, e1, -⟩ := idx1 t
  funext y
  unfold iblk1
  rw [View.read_apply]
  show V c main_v1 _ = V c main_v1 _
  congr 1
  funext a
  apply Fin.ext
  match a with
  | ⟨0, _⟩ => show win1_5.index t (0 : Fin 2) * 256 + 1 * (y 0).val = (y 0).val; omega
  | ⟨1, _⟩ => show win1_5.index t (1 : Fin 2) * 1 + 1 * (y 1).val = (y 1).val; omega

/-- The mixing weights' one block is the 1×3 array. -/
theorem blk1_6 (c : Dev nD) (t : Fin cfg1.N) : (iblk1 V c 6 t : FVec Ideal S1x3 .f32) = (V c main_arg11 : FVec Ideal S1x3 .f32) := by
  obtain ⟨-, -, -, -, -, -, -, -, -, -, -, -, e0, e1, -⟩ := idx1 t
  funext y
  unfold iblk1
  rw [View.read_apply]
  show V c main_arg11 _ = V c main_arg11 _
  congr 1
  funext a
  apply Fin.ext
  match a with
  | ⟨0, _⟩ => show win1_6.index t (0 : Fin 2) * 1 + 1 * (y 0).val = (y 0).val; omega
  | ⟨1, _⟩ => show win1_6.index t (1 : Fin 2) * 3 + 1 * (y 1).val = (y 1).val; omega

/-- What point t leaves in the output's staging buffer, at row p: the score of row 1024·(block index) + p. -/
theorem after1_apply (c : Dev nD) (t : Fin cfg1.N) (p : Fin 1024) (n : Fin 8192)
    (hn : win1_7.index t (0 : Fin 2) * 1024 + p.val = n.val) :
    out1_7 (F := Ideal) (iblk1 V c 0 t) (iblk1 V c 1 t) (iblk1 V c 2 t) (iblk1 V c 3 t) (iblk1 V c 4 t) (iblk1 V c 5 t) (iblk1 V c 6 t) (ix2 p 0)
      = scores1 V c (ix2 n 0) := by
  obtain ⟨e00, e01, e10, e11, e20, e21, e30, e31, -⟩ := idx1 t
  refine (out1_7_apply (iblk1 V c 0 t) (iblk1 V c 1 t) (iblk1 V c 2 t) (iblk1 V c 3 t) (iblk1 V c 4 t) (iblk1 V c 5 t) (iblk1 V c 6 t) p).trans ?_
  rw [blk1_4 V c t, blk1_5 V c t, blk1_6 V c t]
  unfold scores1
  rw [scoreCol_apply]
  refine score_congr _ _ _ _ _ _ p n (fun j => ?_) (fun k => ?_)
  · unfold mixed
    rw [blk1_0 V c t (ix2 p j) (ix2 n j) (by show _ * 1024 + p.val = n.val; omega) (by show _ * 256 + j.val = j.val; omega),
      blk1_1 V c t (ix2 p j) (ix2 n j) (by show _ * 1024 + p.val = n.val; omega) (by show _ * 256 + j.val = j.val; omega),
      blk1_2 V c t (ix2 p j) (ix2 n j) (by show _ * 1024 + p.val = n.val; omega) (by show _ * 256 + j.val = j.val; omega)]
  · exact blk1_3 V c t (ix2 p k) (ix2 n k) (by show _ * 1024 + p.val = n.val; omega) (by show _ * 128 + k.val = k.val; omega)

/-- WHAT POINT t WRITES BACK is its block of the column of scores. -/
theorem flushed1 (c : Dev nD) (t : Fin cfg1.N) :
    (dat1 V c).flushed 7 t = ((cfg1.win 7).blk t).view.read (Elt Ideal) (scores1 V c) := by
  show (cfg1.win 7).cut (grid1.coords t) ((dat1 V c).after 7 t) = _
  rw [after1_7]
  obtain ⟨-, -, -, -, -, -, -, -, -, -, -, -, -, -, hb, e71⟩ := idx1 t
  have key : ∀ y : S1024x1.Idx,
      out1_7 (F := Ideal) (iblk1 V c 0 t) (iblk1 V c 1 t) (iblk1 V c 2 t) (iblk1 V c 3 t) (iblk1 V c 4 t) (iblk1 V c 5 t) (iblk1 V c 6 t) y
        = scores1 V c (((cfg1.win 7).blk t).view.emb y) := by
    intro y
    obtain ⟨p, u, rfl⟩ : ∃ (p : Fin 1024) (u : Fin 1), y = ix2 p u := ⟨y 0, y 1, eq_ix2 y⟩
    obtain rfl : u = 0 := Subsingleton.elim _ _
    have hp := p.isLt
    have hi : ((cfg1.win 7).blk t).view.emb (ix2 p (0 : Fin 1))
        = (ix2 (⟨win1_7.index t (0 : Fin 2) * 1024 + p.val, by omega⟩ : Fin 8192) (0 : Fin 1) : S8192x1.Idx) := by
      funext a
      apply Fin.ext
      match a with
      | ⟨0, _⟩ => show win1_7.index t (0 : Fin 2) * 1024 + 1 * p.val = win1_7.index t (0 : Fin 2) * 1024 + p.val; omega
      | ⟨1, _⟩ => show win1_7.index t (1 : Fin 2) * 1 + 1 * 0 = 0; omega
    rw [hi]
    exact after1_apply V c t p _ rfl
  funext y
  exact key y

/-- An index of the result is in point t's block iff each coordinate is in the block's range on its axis. -/
theorem mem_blk1 (t : Fin cfg1.N) (i : S8192x1.Idx) :
    i ∈ ((cfg1.win 7).blk t).view.set ↔ ∀ a : Fin 2, win1_7.index t a * S1024x1.size a ≤ (i a).val ∧ (i a).val < win1_7.index t a * S1024x1.size a + S1024x1.size a := by
  show i ∈ ((View.whole main_v3).slice (win1_7.rect t)).set ↔ _
  rw [View.set_slice_whole, Rect.mem_set_unit]
  exact Iff.rfl

/-- THE RESULT ARRAY after the run: the column of scores (row r is in the block of point r / 1024). -/
theorem final1 (c : Dev nD) : (dat1 V c).arrAt 7 cfg1.N = scores1 V c :=
  (dat1 V c).arrAt_eq_of_cover 7 (scores1 V c) (fun t _ => flushed1 V c t) fun i => by
    have hi0 : (i 0).val < 8192 := (i 0).isLt
    have hi1 : (i 1).val < 1 := (i 1).isLt
    obtain ⟨t, ht⟩ := onto1 ⟨(i 0).val / 1024, by omega⟩
    have q0 : win1_7.index t (0 : Fin 2) = (i 0).val / 1024 := congrFun ht 0
    have q1 : win1_7.index t (1 : Fin 2) = 0 := congrFun ht 1
    refine ⟨t, flush1_7 t, ?_⟩
    rw [mem_blk1]
    intro a
    match a with
    | ⟨0, _⟩ => show win1_7.index t (0 : Fin 2) * 1024 ≤ (i 0).val ∧ (i 0).val < win1_7.index t (0 : Fin 2) * 1024 + 1024; omega
    | ⟨1, _⟩ => show win1_7.index t (1 : Fin 2) * 1 ≤ (i 1).val ∧ (i 1).val < win1_7.index t (1 : Fin 2) * 1 + 1; omega

end Cert.KernelIdeal.Hand

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Body2.lean ====
/-
  What the third kernel's body leaves in its output block, entry by entry: with a column block x₀ (512 rows) and a row
  block x₁ (2048 columns), entry (p, q) is the activation of x₀ p + x₁ q. The column is repeated along the rows' axis
  and the row along the columns' axis before they are added; the rest of the body is pointwise.
-/
import proofs.«100230_j30064771072071_1_alg».proof.Proof.Gen.KernelIdeal.Frame
import proofs.«100230_j30064771072071_1_alg».proof.Proof.Spec
import proofs.«100230_j30064771072071_1_alg».proof.Proof.LibKeepdims
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen Cert.PairScore

theorem hz : (![0, 0] : Fin 2 → Nat) = fun _ => 0 := funext fun a => by fin_cases a <;> rfl

/-- The column repeated plus the row repeated, at (p, q). -/
theorem outerSum_apply (x0 : FVec Ideal S512x1 .f32) (x1 : FVec Ideal S1x2048 .f32) (p : Fin 512) (q : Fin 2048) :
    addf (broadcastTo S512x2048 x0 Facts₀.broadcasts_S512x1_S512x2048) (broadcastTo S512x2048 x1 Facts₀.broadcasts_S1x2048_S512x2048) (ix2 p q)
      = x0 (ix2 p 0) + x1 (ix2 0 q) := by
  rw [addf_apply, Cert.Keepdims.broadcastTo_a1_ab_apply, broadcastTo_1b_ab_apply]

/-- The body's stored value at (p, q). -/
theorem pay2_apply (x0 : FVec Ideal S512x1 .f32) (x1 : FVec Ideal S1x2048 .f32) (p : Fin 512) (q : Fin 2048) :
    k2_pay1 (F := Ideal) x0 x1 (ix2 p q) = act (x0 (ix2 p 0) + x1 (ix2 0 q)) := by
  unfold k2_pay1
  simp only [shapeCast_self]
  rw [← outerSum_apply x0 x1 p q]
  generalize addf (broadcastTo S512x2048 x0 Facts₀.broadcasts_S512x1_S512x2048) (broadcastTo S512x2048 x1 Facts₀.broadcasts_S1x2048_S512x2048) = X
  exact act_kernel (X (ix2 p q))

/-- The output block after the body at (p, q). -/
theorem out2_2_apply (x0 : FVec Ideal S512x1 .f32) (x1 : FVec Ideal S1x2048 .f32) (p : Fin 512) (q : Fin 2048) :
    out2_2 (F := Ideal) x0 x1 (ix2 p q) = act (x0 (ix2 p 0) + x1 (ix2 0 q)) := by
  unfold out2_2
  rw [View.canon_unit_zero hz]
  simp only [View.ld_unit_zero (S := S512x1) hz, View.ld_unit_zero (S := S1x2048) hz]
  exact pay2_apply x0 x1 p q

end Cert.KernelIdeal.Hand

end
-- ==== Proof.Region2.lean ====
/-
  The third kernel's result array after its run: entry (i, j) is the activation of the sum of entry i of the column it
  is given and entry j of the row it is given.

  The grid is 8 × 4; point (a, b) works on rows 512·a … of the column and columns 2048·b … of the row and writes back
  the 512 × 2048 block (a, b) of the result. An entry reads only its own row's and column's entries, so what a point
  writes back is its block of the whole array; the 32 blocks cover it.
-/
import proofs.«100230_j30064771072071_1_alg».proof.Proof.Gen.KernelIdeal.Frame
import proofs.«100230_j30064771072071_1_alg».proof.Proof.Body2
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen Cert.PairScore
open Idealize.ShloMosaic.Pipeline (Dat)

variable (V : (c : Dev nD) → (b : Ref sig .tc) → Buf (Elt Ideal) ((c : Thread nD τ).loc b))

/-- The activation of every sum of a column entry and a row entry, from the arrays as the region finds them. -/
def sums2 (c : Dev nD) : Mat 4096 8192 := rowcol (V c main_v2) (V c main_v4)

/-- The printed index maps, decided over the grid: the column's block moves with the output's on the rows' axis, the row's
    on the columns' axis, and each sits at block 0 on its unit axis. -/
theorem idx2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = win2_2.index t (1 : Fin 2)
    ∧ win2_2.index t (0 : Fin 2) ≤ 7 ∧ win2_2.index t (1 : Fin 2) ≤ 3 :=
  (by decide +kernel : ∀ t : Fin grid2.N, _)

/-- Every block of the result is some point's. -/
theorem onto2 : ∀ (q0 : Fin 8) (q1 : Fin 4), ∃ t : Fin cfg2.N, win2_2.index t = ![q0.val, q1.val] :=
  (by decide +kernel : ∀ (q0 : Fin 8) (q1 : Fin 4), ∃ t : Fin grid2.N, win2_2.index t = ![q0.val, q1.val])

/-- The column's block at point t, read at an entry. -/
theorem blk2_0 (c : Dev nD) (t : Fin cfg2.N) (y : S512x1.Idx) (i : S4096x1.Idx)
    (h0 : win2_0.index t (0 : Fin 2) * 512 + (y 0).val = (i 0).val) (h1 : win2_0.index t (1 : Fin 2) * 1 + (y 1).val = (i 1).val) :
    (iblk2 V c 0 t : FVec Ideal S512x1 .f32) y = (V c main_v2 : FVec Ideal S4096x1 .f32) i := by
  unfold iblk2
  rw [View.read_apply]
  show V c main_v2 _ = V c main_v2 _
  congr 1
  funext a
  apply Fin.ext
  match a with
  | ⟨0, _⟩ => show win2_0.index t (0 : Fin 2) * 512 + 1 * (y 0).val = (i 0).val; omega
  | ⟨1, _⟩ => show win2_0.index t (1 : Fin 2) * 1 + 1 * (y 1).val = (i 1).val; omega

/-- The row's block at point t, read at an entry. -/
theorem blk2_1 (c : Dev nD) (t : Fin cfg2.N) (y : S1x2048.Idx) (i : S1x8192.Idx)
    (h0 : win2_1.index t (0 : Fin 2) * 1 + (y 0).val = (i 0).val) (h1 : win2_1.index t (1 : Fin 2) * 2048 + (y 1).val = (i 1).val) :
    (iblk2 V c 1 t : FVec Ideal S1x2048 .f32) y = (V c main_v4 : FVec Ideal S1x8192 .f32) i := by
  unfold iblk2
  rw [View.read_apply]
  show V c main_v4 _ = V c main_v4 _
  congr 1
  funext a
  apply Fin.ext
  match a with
  | ⟨0, _⟩ => show win2_1.index t (0 : Fin 2) * 1 + 1 * (y 0).val = (i 0).val; omega
  | ⟨1, _⟩ => show win2_1.index t (1 : Fin 2) * 2048 + 1 * (y 1).val = (i 1).val; omega

/-- What point t leaves in the output's staging buffer at (p, q): the result's entry at the block's offsets plus (p, q). -/
theorem after2_apply (c : Dev nD) (t : Fin cfg2.N) (p : Fin 512) (q : Fin 2048) (n : Fin 4096) (k : Fin 8192)
    (hn : win2_2.index t (0 : Fin 2) * 512 + p.val = n.val) (hk : win2_2.index t (1 : Fin 2) * 2048 + q.val = k.val) :
    out2_2 (F := Ideal) (iblk2 V c 0 t) (iblk2 V c 1 t) (ix2 p q) = sums2 V c (ix2 n k) := by
  obtain ⟨e00, e01, e10, e11, -⟩ := idx2 t
  refine (out2_2_apply (iblk2 V c 0 t) (iblk2 V c 1 t) p q).trans ?_
  unfold sums2
  rw [rowcol_apply,
    blk2_0 V c t (ix2 p 0) (ix2 n 0) (by show _ * 512 + p.val = n.val; omega) (by show _ * 1 + 0 = 0; omega),
    blk2_1 V c t (ix2 0 q) (ix2 0 k) (by show _ * 1 + 0 = 0; omega) (by show _ * 2048 + q.val = k.val; omega)]

/-- WHAT POINT t WRITES BACK is its block of the whole array of activated sums. -/
theorem flushed2 (c : Dev nD) (t : Fin cfg2.N) :
    (dat2 V c).flushed 2 t = ((cfg2.win 2).blk t).view.read (Elt Ideal) (sums2 V c) := by
  show (cfg2.win 2).cut (grid2.coords t) ((dat2 V c).after 2 t) = _
  rw [after2_2]
  obtain ⟨-, -, -, -, hb0, hb1⟩ := idx2 t
  have key : ∀ y : S512x2048.Idx,
      out2_2 (F := Ideal) (iblk2 V c 0 t) (iblk2 V c 1 t) y = sums2 V c (((cfg2.win 2).blk t).view.emb y) := by
    intro y
    obtain ⟨p, q, rfl⟩ : ∃ (p : Fin 512) (q : Fin 2048), y = ix2 p q := ⟨y 0, y 1, eq_ix2 y⟩
    have hp := p.isLt
    have hq := q.isLt
    have hi : ((cfg2.win 2).blk t).view.emb (ix2 p q)
        = (ix2 (⟨win2_2.index t (0 : Fin 2) * 512 + p.val, by omega⟩ : Fin 4096)
            (⟨win2_2.index t (1 : Fin 2) * 2048 + q.val, by omega⟩ : Fin 8192) : S4096x8192.Idx) := by
      funext a
      apply Fin.ext
      match a with
      | ⟨0, _⟩ => show win2_2.index t (0 : Fin 2) * 512 + 1 * p.val = win2_2.index t (0 : Fin 2) * 512 + p.val; omega
      | ⟨1, _⟩ => show win2_2.index t (1 : Fin 2) * 2048 + 1 * q.val = win2_2.index t (1 : Fin 2) * 2048 + q.val; omega
    rw [hi]
    exact after2_apply V c t p q _ _ rfl rfl
  funext y
  exact key y

/-- An index of the result is in point t's block iff each coordinate is in the block's range on its axis. -/
theorem mem_blk2 (t : Fin cfg2.N) (i : S4096x8192.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v5).slice (win2_2.rect t)).set ↔ _
  rw [View.set_slice_whole, Rect.mem_set_unit]
  exact Iff.rfl

/-- THE RESULT ARRAY after the run: entry (r, s) is in the block of point (r / 512, s / 2048). -/
theorem final2 (c : Dev nD) : (dat2 V c).arrAt 2 cfg2.N = sums2 V c :=
  (dat2 V c).arrAt_eq_of_cover 2 (sums2 V c) (fun t _ => flushed2 V c t) fun i => by
    have hi0 : (i 0).val < 4096 := (i 0).isLt
    have hi1 : (i 1).val < 8192 := (i 1).isLt
    obtain ⟨t, ht⟩ := onto2 ⟨(i 0).val / 512, by omega⟩ ⟨(i 1).val / 2048, by omega⟩
    have q0 : win2_2.index t (0 : Fin 2) = (i 0).val / 512 := congrFun ht 0
    have q1 : win2_2.index t (1 : Fin 2) = (i 1).val / 2048 := congrFun ht 1
    refine ⟨t, flush2_2 t, ?_⟩
    rw [mem_blk2]
    intro a
    match a with
    | ⟨0, _⟩ => show win2_2.index t (0 : Fin 2) * 512 ≤ (i 0).val ∧ (i 0).val < win2_2.index t (0 : Fin 2) * 512 + 512; omega
    | ⟨1, _⟩ => show win2_2.index t (1 : Fin 2) * 2048 ≤ (i 1).val ∧ (i 1).val < win2_2.index t (1 : Fin 2) * 2048 + 2048; omega

end Cert.KernelIdeal.Hand

end
-- ==== Proof.Chain.lean ====
/-
  From the launch memory to the result buffer, through the program's boundaries.

  The host first cuts the 512 weights into their two halves. The first region leaves the first node set's column of
  scores in its result buffer, computed from the launch arrays and the first half; nothing it writes is read by the
  second region, which leaves the second set's column from the launch arrays and the second half. The host re-lays that
  column as a row (entry q of the row is entry q of the column), and the third region leaves the activated sums of the
  first column and that row: `result` of the launch arrays.
-/
import proofs.«100230_j30064771072071_1_alg».proof.Proof.Gen.KernelIdeal.Frame
import proofs.«100230_j30064771072071_1_alg».proof.Proof.Region0
import proofs.«100230_j30064771072071_1_alg».proof.Proof.Region1
import proofs.«100230_j30064771072071_1_alg».proof.Proof.Region2
import Idealize.ShloMosaic.Lib.StableHlo.Run

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.PairScore

variable (m : (ℓ : Loc nD τ sig) → Buf (Elt Ideal) ℓ) (ρ : Dev nD → PrngReg)

/-- The first host stretch writes the two halves only: every other buffer enters the first region as launched. -/
theorem W1_keep (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))).trans rfl

/-- The first half of the weights, as the first region finds it. -/
theorem W1_v0 (c : Dev nD) : (W1 m ρ c (Proc.devRef .tc main_v0) : Mat 256 1) = lowHalf (m ((c : Thread nD τ).loc main_arg12)) := by
  show StableHlo.after hostOps0 (W0 m ρ c) (Proc.devRef .tc main_v0) = _
  after_results
  exact slice_lowHalf _ _

/-- The second half of the weights, as the first region finds it. -/
theorem W1_v1 (c : Dev nD) : (W1 m ρ c (Proc.devRef .tc main_v1) : Mat 256 1) = highHalf (m ((c : Thread nD τ).loc main_arg12)) := by
  show StableHlo.after hostOps0 (W0 m ρ c) (Proc.devRef .tc main_v1) = _
  after_results
  exact slice_highHalf _ _

/-- The first node set's column of scores from the launch arrays. -/
def col0 (c : Dev nD) : Mat 4096 1 :=
  scoreCol (mixed (m ((c : Thread nD τ).loc main_arg10)) (m ((c : Thread nD τ).loc main_arg0)) (m ((c : Thread nD τ).loc main_arg1))
      (m ((c : Thread nD τ).loc main_arg2))) (m ((c : Thread nD τ).loc main_arg3)) (m ((c : Thread nD τ).loc main_arg8))
    (lowHalf (m ((c : Thread nD τ).loc main_arg12)))

/-- The second node set's column of scores from the launch arrays. -/
def col1 (c : Dev nD) : Mat 8192 1 :=
  scoreCol (mixed (m ((c : Thread nD τ).loc main_arg11)) (m ((c : Thread nD τ).loc main_arg4)) (m ((c : Thread nD τ).loc main_arg5))
      (m ((c : Thread nD τ).loc main_arg6))) (m ((c : Thread nD τ).loc main_arg7)) (m ((c : Thread nD τ).loc main_arg9))
    (highHalf (m ((c : Thread nD τ).loc main_arg12)))

/-- The first region's column of scores is computed from the launch arrays. -/
theorem scores0_launch (c : Dev nD) : scores0 (V1 m ρ) c = col0 m c := by
  have e0 : V1 m ρ c main_arg0 = m ((c : Thread nD τ).loc main_arg0) := W1_keep m ρ c main_arg0 (by decide) (by decide)
  have e1 : V1 m ρ c main_arg1 = m ((c : Thread nD τ).loc main_arg1) := W1_keep m ρ c main_arg1 (by decide) (by decide)
  have e2 : V1 m ρ c main_arg2 = m ((c : Thread nD τ).loc main_arg2) := W1_keep m ρ c main_arg2 (by decide) (by decide)
  have e3 : V1 m ρ c main_arg3 = m ((c : Thread nD τ).loc main_arg3) := W1_keep m ρ c main_arg3 (by decide) (by decide)
  have e8 : V1 m ρ c main_arg8 = m ((c : Thread nD τ).loc main_arg8) := W1_keep m ρ c main_arg8 (by decide) (by decide)
  have e10 : V1 m ρ c main_arg10 = m ((c : Thread nD τ).loc main_arg10) := W1_keep m ρ c main_arg10 (by decide) (by decide)
  have ev : (V1 m ρ c main_v0 : Mat 256 1) = lowHalf (m ((c : Thread nD τ).loc main_arg12)) := W1_v0 m ρ c
  unfold scores0 col0
  rw [e0, e1, e2, e3, e8, e10, ev]

/-- The second region finds the launch arrays and the second half of the weights: the first region wrote none of them. -/
theorem scores1_launch (c : Dev nD) : scores1 (V2 m ρ) c = col1 m c := by
  have e4 : V2 m ρ c main_arg4 = m ((c : Thread nD τ).loc main_arg4) :=
    (W2_of_ne m ρ c main_arg4 (by decide)).trans (W1_keep m ρ c main_arg4 (by decide) (by decide))
  have e5 : V2 m ρ c main_arg5 = m ((c : Thread nD τ).loc main_arg5) :=
    (W2_of_ne m ρ c main_arg5 (by decide)).trans (W1_keep m ρ c main_arg5 (by decide) (by decide))
  have e6 : V2 m ρ c main_arg6 = m ((c : Thread nD τ).loc main_arg6) :=
    (W2_of_ne m ρ c main_arg6 (by decide)).trans (W1_keep m ρ c main_arg6 (by decide) (by decide))
  have e7 : V2 m ρ c main_arg7 = m ((c : Thread nD τ).loc main_arg7) :=
    (W2_of_ne m ρ c main_arg7 (by decide)).trans (W1_keep m ρ c main_arg7 (by decide) (by decide))
  have e9 : V2 m ρ c main_arg9 = m ((c : Thread nD τ).loc main_arg9) :=
    (W2_of_ne m ρ c main_arg9 (by decide)).trans (W1_keep m ρ c main_arg9 (by decide) (by decide))
  have e11 : V2 m ρ c main_arg11 = m ((c : Thread nD τ).loc main_arg11) :=
    (W2_of_ne m ρ c main_arg11 (by decide)).trans (W1_keep m ρ c main_arg11 (by decide) (by decide))
  have ev : (V2 m ρ c main_v1 : Mat 256 1) = highHalf (m ((c : Thread nD τ).loc main_arg12)) :=
    (W2_of_ne m ρ c main_v1 (by decide)).trans (W1_v1 m ρ c)
  unfold scores1 col1
  rw [e4, e5, e6, e7, e9, e11, ev]

/-- The third region finds the first column where the first region left it: neither the second region nor the re-laying
    of the second column writes it. -/
theorem V4_v2 (c : Dev nD) : (V4 m ρ c main_v2 : Mat 4096 1) = col0 m c :=
  calc W4 m ρ c (Proc.devRef .tc main_v2)
    _ = W3 m ρ c (Proc.devRef .tc main_v2) := StableHlo.after_of_forall_not_mem (b := Proc.devRef .tc main_v2) _ _ (List.forall_iff_forall_mem.mp (by
          simp only [hostOps2, List.Forall, StableHlo.reshape_writes, Finset.mem_singleton]
          exact StableHlo.devRef_ne_of_ne (by decide)))
    _ = W2 m ρ c (Proc.devRef .tc main_v2) := W3_of_ne m ρ c main_v2 (by decide)
    _ = (dat0 (V1 m ρ) c).arrAt 7 cfg0.N := W2_arr m ρ c 7
    _ = scores0 (V1 m ρ) c := final0 (V1 m ρ) c
    _ = col0 m c := scores0_launch m ρ c

/-- The row the third region finds, at entry q, is entry q of the second column. -/
theorem V4_v4 (c : Dev nD) (q : Fin 8192) : (V4 m ρ c main_v4 : Mat 1 8192) (ix2 0 q) = col1 m c (ix2 q 0) := by
  have e3 : (W3 m ρ c (Proc.devRef .tc main_v3) : Mat 8192 1) = col1 m c :=
    ((W3_arr m ρ c 7).trans (final1 (V2 m ρ) c)).trans (scores1_launch m ρ c)
  have e4 : (W4 m ρ c (Proc.devRef .tc main_v4) : Mat 1 8192)
      = shapeCast S1x8192 (W3 m ρ c (Proc.devRef .tc main_v3) : Mat 8192 1) Facts₀.shapeCasts_S8192x1_S1x8192 := by
    show StableHlo.after hostOps2 (W3 m ρ c) (Proc.devRef .tc main_v4) = _
    after_results
    rfl
  show (W4 m ρ c (Proc.devRef .tc main_v4) : Mat 1 8192) (ix2 0 q) = _
  rw [e4, e3]
  exact shapeCast_apply (col1 m c) Facts₀.shapeCasts_S8192x1_S1x8192 (ix2 0 q) (ix2 q 0) (by
    rewrite [Shape.rowMajor_val_two, Shape.rowMajor_val_two]
    show q.val * 1 + 0 = 0 * 8192 + q.val
    omega)

/-- THE RESULT BUFFER at the last boundary is `result` of the launch arrays. -/
theorem result_launch (c : Dev nD) :
    W5 m ρ c (Proc.devRef .tc main_v5)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  refine ((W5_arr m ρ c 2).trans (final2 (V4 m ρ) c)).trans ?_
  funext i
  obtain ⟨p, q, rfl⟩ : ∃ (p : Fin 4096) (q : Fin 8192), i = ix2 p q := ⟨i 0, i 1, eq_ix2 i⟩
  unfold sums2
  rw [rowcol_apply, V4_v2 m ρ c, V4_v4 m ρ c q]
  rfl

end Cert.KernelIdeal.Hand

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.RefRun.lean ====
/-
  The reference program's run, read back.

  The reference is a straight line of 36 host operations. Every weakly fair execution of it terminates with each buffer
  at the fold of the operations' results over the launch contents; read at the result buffer that fold is the last
  stage's value as a function of the thirteen argument arrays, and read at an argument it is the argument as launched
  (no operation writes one). The fold is computed one operation at a time; it passes through the two stacks of three views
  (three-operand operations, read with each operand at its own reference) and through the two-piece concatenations (read
  with each piece an argument of its own) by the two facts of the module on folding through concatenations.
-/
import proofs.«100230_j30064771072071_1_alg».proof.Proof.Gen.ReferenceIdeal
import proofs.«100230_j30064771072071_1_alg».proof.Proof.ReadP
import proofs.«100230_j30064771072071_1_alg».proof.Proof.LibFoldConcat
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.FoldConcat

variable {F : FTy → Type} [FloatOps F]

/-- The reference's 36 host operations, in program order; the operations of the outlined softplus stand where it is called. -/
abbrev ops : List (HloOp τ sig (Elt F)) :=
  [ nary ![main_arg0, main_arg1, main_arg2] main_v0 (fun u => concatenate S12288x256 0 [⟨S4096x256, u 0⟩, ⟨S4096x256, u 1⟩, ⟨S4096x256, u 2⟩] concatenates_S4096x256_S4096x256_S4096x256_S12288x256_d0),
    reshape main_v0 main_v1 rfl shapeCasts_S12288x256_S3x1048576,
    binary main_arg10 main_v1 main_v2 ((fun l r => Host.dotGeneral dot_S1x3_S3x1048576_S1x1048576_1_0_0_1_n_n none l r) : (⟨S1x3, .f32⟩ : BufTy).Contents (Elt F) → (⟨S3x1048576, .f32⟩ : BufTy).Contents (Elt F) → (⟨S1x1048576, .f32⟩ : BufTy).Contents (Elt F)),
    reshape main_v2 main_v3 rfl shapeCasts_S1x1048576_S4096x256,
    nary ![main_arg4, main_arg5, main_arg6] main_v4 (fun u => concatenate S24576x256 0 [⟨S8192x256, u 0⟩, ⟨S8192x256, u 1⟩, ⟨S8192x256, u 2⟩] concatenates_S8192x256_S8192x256_S8192x256_S24576x256_d0),
    reshape main_v4 main_v5 rfl shapeCasts_S24576x256_S3x2097152,
    binary main_arg11 main_v5 main_v6 ((fun l r => Host.dotGeneral dot_S1x3_S3x2097152_S1x2097152_1_0_0_1_n_n none l r) : (⟨S1x3, .f32⟩ : BufTy).Contents (Elt F) → (⟨S3x2097152, .f32⟩ : BufTy).Contents (Elt F) → (⟨S1x2097152, .f32⟩ : BufTy).Contents (Elt F)),
    reshape main_v6 main_v7 rfl shapeCasts_S1x2097152_S8192x256,
    binary main_v3 main_arg8 main_v8 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    binary main_v8 main_arg3 main_v9 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v7 main_arg9 main_v10 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    binary main_v10 main_arg7 main_v11 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    unary main_arg12 main_v12 ((extractStridedSlice S256x1 ![0, 0] · slices_S512x1_S256x1_0_0) : (⟨S512x1, .f32⟩ : BufTy).Contents (Elt F) → (⟨S256x1, .f32⟩ : BufTy).Contents (Elt F)),
    unary main_arg12 main_v13 ((extractStridedSlice S256x1 ![256, 0] · slices_S512x1_S256x1_256_0) : (⟨S512x1, .f32⟩ : BufTy).Contents (Elt F) → (⟨S256x1, .f32⟩ : BufTy).Contents (Elt F)),
    binary main_v9 main_v12 main_v14 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v11 main_v13 main_v15 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v15 main_v16 ((transpose S1x8192 [1, 0] · transposes_S8192x1_S1x8192_1_0) : (⟨S8192x1, .f32⟩ : BufTy).Contents (Elt F) → (⟨S1x8192, .f32⟩ : BufTy).Contents (Elt F)),
    unary main_v14 main_v17 (broadcastInDim S4096x8192 ![0, 1] bcast_S4096x1_S4096x8192_0_1 : (⟨S4096x1, .f32⟩ : BufTy).Contents (Elt F) → (⟨S4096x8192, .f32⟩ : BufTy).Contents (Elt F)),
    unary main_v16 main_v18 (broadcastInDim S4096x8192 ![0, 1] bcast_S1x8192_S4096x8192_0_1 : (⟨S1x8192, .f32⟩ : BufTy).Contents (Elt F) → (⟨S4096x8192, .f32⟩ : BufTy).Contents (Elt F)),
    binary main_v17 main_v18 main_v19 (addf : (⟨S4096x8192, .f32⟩ : BufTy).Contents (Elt F) → (⟨S4096x8192, .f32⟩ : BufTy).Contents (Elt F) → (⟨S4096x8192, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x8192, .f32⟩) main_call0_v0) (broadcastInDim S4096x8192 ![] bcast_S_S4096x8192),
    TRef.binary (TRef.of (T := ⟨S4096x8192, .f32⟩) main_v19) (TRef.of (T := ⟨S4096x8192, .f32⟩) main_call0_v0) (TRef.of (T := ⟨S4096x8192, .f32⟩) main_call0_v1) maximumf,
    TRef.unary (TRef.of (T := ⟨S_, .f32⟩) main_call0_cst) (TRef.of (T := ⟨S4096x8192, .f32⟩) main_call0_v2) (broadcastInDim S4096x8192 ![] bcast_S_S4096x8192),
    TRef.binary (TRef.of (T := ⟨S4096x8192, .f32⟩) main_v19) (TRef.of (T := ⟨S4096x8192, .f32⟩) main_call0_v2) (TRef.of (T := ⟨S4096x8192, .f32⟩) main_call0_v3) subf,
    TRef.binary (TRef.of (T := ⟨S4096x8192, .f32⟩) main_call0_v3) (TRef.of (T := ⟨S4096x8192, .f32⟩) main_call0_v3) (TRef.of (T := ⟨S4096x8192, .i1⟩) main_call0_v4) (cmpf .une),
    TRef.unary (TRef.of (T := ⟨S_, .f32⟩) main_call0_cst) (TRef.of (T := ⟨S4096x8192, .f32⟩) main_call0_v5) (broadcastInDim S4096x8192 ![] bcast_S_S4096x8192),
    TRef.binary (TRef.of (T := ⟨S4096x8192, .f32⟩) main_v19) (TRef.of (T := ⟨S4096x8192, .f32⟩) main_call0_v5) (TRef.of (T := ⟨S4096x8192, .f32⟩) main_call0_v6) addf,
    TRef.unary (TRef.of (T := ⟨S4096x8192, .f32⟩) main_call0_v3) (TRef.of (T := ⟨S4096x8192, .f32⟩) main_call0_v7) Host.absf,
    TRef.unary (TRef.of (T := ⟨S4096x8192, .f32⟩) main_call0_v7) (TRef.of (T := ⟨S4096x8192, .f32⟩) main_call0_v8) Host.negf,
    TRef.unary (TRef.of (T := ⟨S4096x8192, .f32⟩) main_call0_v8) (TRef.of (T := ⟨S4096x8192, .f32⟩) main_call0_v9) Host.exp,
    TRef.unary (TRef.of (T := ⟨S4096x8192, .f32⟩) main_call0_v9) (TRef.of (T := ⟨S4096x8192, .f32⟩) main_call0_v10) Host.log1p,
    TRef.binary (TRef.of (T := ⟨S4096x8192, .f32⟩) main_call0_v1) (TRef.of (T := ⟨S4096x8192, .f32⟩) main_call0_v10) (TRef.of (T := ⟨S4096x8192, .f32⟩) main_call0_v11) addf,
    TRef.ternary (TRef.of (T := ⟨S4096x8192, .i1⟩) main_call0_v4) (TRef.of (T := ⟨S4096x8192, .f32⟩) main_call0_v6) (TRef.of (T := ⟨S4096x8192, .f32⟩) main_call0_v11) (TRef.of (T := ⟨S4096x8192, .f32⟩) main_v20) select,
    unary main_v20 main_v21 (Host.tanh : (⟨S4096x8192, .f32⟩ : BufTy).Contents (Elt F) → (⟨S4096x8192, .f32⟩ : BufTy).Contents (Elt F)),
    binary main_v19 main_v21 main_v22 (mulf : (⟨S4096x8192, .f32⟩ : BufTy).Contents (Elt F) → (⟨S4096x8192, .f32⟩ : BufTy).Contents (Elt F) → (⟨S4096x8192, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nary_bufs_sub .., reshape_bufs_sub .., binary_bufs_sub .., reshape_bufs_sub .., nary_bufs_sub .., reshape_bufs_sub .., binary_bufs_sub .., reshape_bufs_sub .., binary_bufs_sub .., binary_bufs_sub .., binary_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub ..⟩

set_option maxHeartbeats 2000000 in
/-- The fold at the result buffer is the last stage's value of the arguments' contents. -/
theorem result_eq (V : Valuation τ sig (Elt F)) :
    after ops V (Proc.devRef .tc main_v22)
      = Cert.ReferenceIdeal.ReadP.val_main_v22 (F := F) (V (Proc.devRef .tc main_arg0)) (V (Proc.devRef .tc main_arg1))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) := by
  simp (disch := decide) only [after_cons, after_nil,
    nullary_result', unary_result', binary_result', ternary_result', reshape_result', nary3_result', cat2_fold,
    nullary_result_ne', unary_result_ne', binary_result_ne', ternary_result_ne', reshape_result_ne', nary_result_ne']
  rfl

set_option maxHeartbeats 2000000 in
/-- On every device, from any memory with zero counters: every weakly fair execution of the reference terminates with
    the result buffer at the last stage's value of the argument arrays and the argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = Cert.ReferenceIdeal.ReadP.val_main_v22 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v22).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference's result is `result` of its argument arrays.

  The reference mixes the three views by laying them end to end along the rows, re-laying that as 3 rows of R·256 entries,
  multiplying the 1×3 weights into it and re-laying the product as R rows of 256: entry (n, j) of the outcome is the sum
  over the three views of weight × that view's entry (n, j) — row c·R + n of the stacked array is row n of view c. From there
  it is the host's two products around the concatenation (a row's score), the second set's column transposed into a row,
  both broadcast to the full array and added, and the activation in jax's spelling of softplus.
-/
import proofs.«100230_j30064771072071_1_alg».proof.Proof.ReadP
import proofs.«100230_j30064771072071_1_alg».proof.Proof.ScoreOps

noncomputable section

namespace Cert.ReferenceIdeal.Hand

open Idealize.ShloMosaic Idealize.ShloMosaic.TcCoe Idealize.ShloMosaic.ValueIdx Idealize.SL.Sem
open Cert.ReferenceIdeal Cert.ReferenceIdeal.Facts₀ Cert.ReferenceIdeal.Facts Cert.ReferenceIdeal.ReadP Cert.PairScore

/-- Three arrays of R rows laid end to end along the rows: row n of the first, R + n of the second, 2R + n of the third
    are the three arrays' rows n. -/
theorem concat3_apply {R T0 : ℕ}
    (hc : Shape.Concatenates [(⟨2, ![R, 256]⟩ : Shape), ⟨2, ![R, 256]⟩, ⟨2, ![R, 256]⟩] ⟨2, ![T0, 256]⟩ 0)
    (x y z : Mat R 256) (n : Fin R) (j : Fin 256) (r : Fin T0) :
    (r.val = n.val → concatenate (⟨2, ![T0, 256]⟩ : Shape) 0 [⟨⟨2, ![R, 256]⟩, x⟩, ⟨⟨2, ![R, 256]⟩, y⟩, ⟨⟨2, ![R, 256]⟩, z⟩] hc (ix2 r j) = x (ix2 n j))
    ∧ (r.val = R + n.val → concatenate (⟨2, ![T0, 256]⟩ : Shape) 0 [⟨⟨2, ![R, 256]⟩, x⟩, ⟨⟨2, ![R, 256]⟩, y⟩, ⟨⟨2, ![R, 256]⟩, z⟩] hc (ix2 r j) = y (ix2 n j))
    ∧ (r.val = R + R + n.val → concatenate (⟨2, ![T0, 256]⟩ : Shape) 0 [⟨⟨2, ![R, 256]⟩, x⟩, ⟨⟨2, ![R, 256]⟩, y⟩, ⟨⟨2, ![R, 256]⟩, z⟩] hc (ix2 r j) = z (ix2 n j)) := by
  refine ⟨fun hr => ?_, fun hr => ?_, fun hr => ?_⟩
  · refine concatenate_apply_piece 0 [⟨⟨2, ![R, 256]⟩, x⟩, ⟨⟨2, ![R, 256]⟩, y⟩, ⟨⟨2, ![R, 256]⟩, z⟩] hc (ix2 r j) 0 (by show 0 < 3; omega) ⟨2, ![R, 256]⟩ x rfl rfl 0 (by first | rfl | simp) (ix2 n j) (fun b hb => ?_) ?_
    · match b with
      | ⟨0, _⟩ => exact absurd rfl hb
      | ⟨1, _⟩ => rfl
    · show 0 + n.val = r.val; omega
  · refine concatenate_apply_piece 0 [⟨⟨2, ![R, 256]⟩, x⟩, ⟨⟨2, ![R, 256]⟩, y⟩, ⟨⟨2, ![R, 256]⟩, z⟩] hc (ix2 r j) 1 (by show 1 < 3; omega) ⟨2, ![R, 256]⟩ y rfl rfl R (by first | rfl | simp) (ix2 n j) (fun b hb => ?_) ?_
    · match b with
      | ⟨0, _⟩ => exact absurd rfl hb
      | ⟨1, _⟩ => rfl
    · show R + n.val = r.val; omega
  · refine concatenate_apply_piece 0 [⟨⟨2, ![R, 256]⟩, x⟩, ⟨⟨2, ![R, 256]⟩, y⟩, ⟨⟨2, ![R, 256]⟩, z⟩] hc (ix2 r j) 2 (by show 2 < 3; omega) ⟨2, ![R, 256]⟩ z rfl rfl (R + R) (by first | rfl | simp) (ix2 n j) (fun b hb => ?_) ?_
    · match b with
      | ⟨0, _⟩ => exact absurd rfl hb
      | ⟨1, _⟩ => rfl
    · show R + R + n.val = r.val; omega

/-- The first node set's views mixed, as the reference computes it, is `mixed`. -/
theorem mix_m (x0 x1 x2 : Mat 4096 256) (x10 : Mat 1 3) : val_main_v3 (F := Ideal) x0 x1 x2 x10 = mixed x10 x0 x1 x2 := by
  funext i
  obtain ⟨n, j, rfl⟩ : ∃ (n : Fin 4096) (j : Fin 256), i = ix2 n j := ⟨i 0, i 1, eq_ix2 i⟩
  have hn := n.isLt
  have hj := j.isLt
  rw [val_main_v3_apply, val_main_v2_apply, Fin.sum_univ_three, val_main_v1_apply, val_main_v1_apply, val_main_v1_apply]
  unfold val_main_v0 mixed
  have e0 : lidx_main_v2 (idx_main_v3 (ix2 n j)) 0 = ix2 0 0 := funext fun a => Fin.ext (by match a with | ⟨0, _⟩ => rfl | ⟨1, _⟩ => rfl)
  have e1 : lidx_main_v2 (idx_main_v3 (ix2 n j)) 1 = ix2 0 1 := funext fun a => Fin.ext (by match a with | ⟨0, _⟩ => rfl | ⟨1, _⟩ => rfl)
  have e2 : lidx_main_v2 (idx_main_v3 (ix2 n j)) 2 = ix2 0 2 := funext fun a => Fin.ext (by match a with | ⟨0, _⟩ => rfl | ⟨1, _⟩ => rfl)
  have r0 : idx_main_v1 (ridx_main_v2 (idx_main_v3 (ix2 n j)) 0) = ix2 (⟨n.val, by omega⟩ : Fin 12288) j := funext fun a => Fin.ext (by
    match a with
    | ⟨0, _⟩ => show (0 * 1048576 + (n.val * 256 + j.val) % 1048576) / 256 = n.val; omega
    | ⟨1, _⟩ => show (0 * 1048576 + (n.val * 256 + j.val) % 1048576) % 256 = j.val; omega)
  have r1 : idx_main_v1 (ridx_main_v2 (idx_main_v3 (ix2 n j)) 1) = ix2 (⟨4096 + n.val, by omega⟩ : Fin 12288) j := funext fun a => Fin.ext (by
    match a with
    | ⟨0, _⟩ => show (1 * 1048576 + (n.val * 256 + j.val) % 1048576) / 256 = 4096 + n.val; omega
    | ⟨1, _⟩ => show (1 * 1048576 + (n.val * 256 + j.val) % 1048576) % 256 = j.val; omega)
  have r2 : idx_main_v1 (ridx_main_v2 (idx_main_v3 (ix2 n j)) 2) = ix2 (⟨4096 + 4096 + n.val, by omega⟩ : Fin 12288) j := funext fun a => Fin.ext (by
    match a with
    | ⟨0, _⟩ => show (2 * 1048576 + (n.val * 256 + j.val) % 1048576) / 256 = 4096 + 4096 + n.val; omega
    | ⟨1, _⟩ => show (2 * 1048576 + (n.val * 256 + j.val) % 1048576) % 256 = j.val; omega)
  have c0 := (concat3_apply concatenates_S4096x256_S4096x256_S4096x256_S12288x256_d0 x0 x1 x2 n j
    (⟨n.val, by omega⟩ : Fin 12288)).1 rfl
  have c1 := (concat3_apply concatenates_S4096x256_S4096x256_S4096x256_S12288x256_d0 x0 x1 x2 n j
    (⟨4096 + n.val, by omega⟩ : Fin 12288)).2.1 rfl
  have c2 := (concat3_apply concatenates_S4096x256_S4096x256_S4096x256_S12288x256_d0 x0 x1 x2 n j
    (⟨4096 + 4096 + n.val, by omega⟩ : Fin 12288)).2.2 rfl
  rw [e0, e1, e2, r0, r1, r2, c0, c1, c2]

/-- The second node set's views mixed, as the reference computes it, is `mixed`. -/
theorem mix_d (x4 x5 x6 : Mat 8192 256) (x11 : Mat 1 3) : val_main_v7 (F := Ideal) x4 x5 x6 x11 = mixed x11 x4 x5 x6 := by
  funext i
  obtain ⟨n, j, rfl⟩ : ∃ (n : Fin 8192) (j : Fin 256), i = ix2 n j := ⟨i 0, i 1, eq_ix2 i⟩
  have hn := n.isLt
  have hj := j.isLt
  rw [val_main_v7_apply, val_main_v6_apply, Fin.sum_univ_three, val_main_v5_apply, val_main_v5_apply, val_main_v5_apply]
  unfold val_main_v4 mixed
  have e0 : lidx_main_v6 (idx_main_v7 (ix2 n j)) 0 = ix2 0 0 := funext fun a => Fin.ext (by match a with | ⟨0, _⟩ => rfl | ⟨1, _⟩ => rfl)
  have e1 : lidx_main_v6 (idx_main_v7 (ix2 n j)) 1 = ix2 0 1 := funext fun a => Fin.ext (by match a with | ⟨0, _⟩ => rfl | ⟨1, _⟩ => rfl)
  have e2 : lidx_main_v6 (idx_main_v7 (ix2 n j)) 2 = ix2 0 2 := funext fun a => Fin.ext (by match a with | ⟨0, _⟩ => rfl | ⟨1, _⟩ => rfl)
  have r0 : idx_main_v5 (ridx_main_v6 (idx_main_v7 (ix2 n j)) 0) = ix2 (⟨n.val, by omega⟩ : Fin 24576) j := funext fun a => Fin.ext (by
    match a with
    | ⟨0, _⟩ => show (0 * 2097152 + (n.val * 256 + j.val) % 2097152) / 256 = n.val; omega
    | ⟨1, _⟩ => show (0 * 2097152 + (n.val * 256 + j.val) % 2097152) % 256 = j.val; omega)
  have r1 : idx_main_v5 (ridx_main_v6 (idx_main_v7 (ix2 n j)) 1) = ix2 (⟨8192 + n.val, by omega⟩ : Fin 24576) j := funext fun a => Fin.ext (by
    match a with
    | ⟨0, _⟩ => show (1 * 2097152 + (n.val * 256 + j.val) % 2097152) / 256 = 8192 + n.val; omega
    | ⟨1, _⟩ => show (1 * 2097152 + (n.val * 256 + j.val) % 2097152) % 256 = j.val; omega)
  have r2 : idx_main_v5 (ridx_main_v6 (idx_main_v7 (ix2 n j)) 2) = ix2 (⟨8192 + 8192 + n.val, by omega⟩ : Fin 24576) j := funext fun a => Fin.ext (by
    match a with
    | ⟨0, _⟩ => show (2 * 2097152 + (n.val * 256 + j.val) % 2097152) / 256 = 8192 + 8192 + n.val; omega
    | ⟨1, _⟩ => show (2 * 2097152 + (n.val * 256 + j.val) % 2097152) % 256 = j.val; omega)
  have c0 := (concat3_apply concatenates_S8192x256_S8192x256_S8192x256_S24576x256_d0 x4 x5 x6 n j
    (⟨n.val, by omega⟩ : Fin 24576)).1 rfl
  have c1 := (concat3_apply concatenates_S8192x256_S8192x256_S8192x256_S24576x256_d0 x4 x5 x6 n j
    (⟨8192 + n.val, by omega⟩ : Fin 24576)).2.1 rfl
  have c2 := (concat3_apply concatenates_S8192x256_S8192x256_S8192x256_S24576x256_d0 x4 x5 x6 n j
    (⟨8192 + 8192 + n.val, by omega⟩ : Fin 24576)).2.2 rfl
  rw [e0, e1, e2, r0, r1, r2, c0, c1, c2]

/-- The first node set's column of scores on the host. -/
theorem scores_m (x0 x1 x2 : Mat 4096 256) (x3 : Mat 4096 128) (x8 : Mat 256 128) (x10 : Mat 1 3) (x12 : Mat 512 1) (p : Fin 4096) :
    val_main_v14 (F := Ideal) x0 x1 x2 x3 x8 x10 x12 (ix2 p 0) = score (mixed x10 x0 x1 x2) x3 x8 (lowHalf x12) p := by
  unfold val_main_v14 val_main_v9 val_main_v8
  refine (host_score dot_S4096x256_S256x128_S4096x128_1_0_0_1_n_n rfl dot_S4096x256_S256x1_S4096x1_1_0_0_1_n_n rfl
    concatenates_S4096x128_S4096x128_S4096x256_d1 (val_main_v3 (F := Ideal) x0 x1 x2 x10) x3 x8 (val_main_v12 (F := Ideal) x12) p).trans ?_
  rw [mix_m]
  unfold val_main_v12
  rw [slice_lowHalf]

/-- The second node set's column of scores on the host. -/
theorem scores_d (x4 x5 x6 : Mat 8192 256) (x7 : Mat 8192 128) (x9 : Mat 256 128) (x11 : Mat 1 3) (x12 : Mat 512 1) (q : Fin 8192) :
    val_main_v15 (F := Ideal) x4 x5 x6 x7 x9 x11 x12 (ix2 q 0) = score (mixed x11 x4 x5 x6) x7 x9 (highHalf x12) q := by
  unfold val_main_v15 val_main_v11 val_main_v10
  refine (host_score dot_S8192x256_S256x128_S8192x128_1_0_0_1_n_n rfl dot_S8192x256_S256x1_S8192x1_1_0_0_1_n_n rfl
    concatenates_S8192x128_S8192x128_S8192x256_d1 (val_main_v7 (F := Ideal) x4 x5 x6 x11) x7 x9 (val_main_v13 (F := Ideal) x12) q).trans ?_
  rw [mix_d]
  unfold val_main_v13
  rw [slice_highHalf]

/-- The sum the activation is applied to, at (p, q): row p's score of the first set plus row q's of the second. -/
theorem sum_apply (x0 x1 x2 : Mat 4096 256) (x3 : Mat 4096 128) (x4 x5 x6 : Mat 8192 256) (x7 : Mat 8192 128) (x8 x9 : Mat 256 128)
    (x10 x11 : Mat 1 3) (x12 : Mat 512 1) (p : Fin 4096) (q : Fin 8192) :
    val_main_v19 (F := Ideal) x0 x1 x2 x3 x4 x5 x6 x7 x8 x9 x10 x11 x12 (ix2 p q)
      = score (mixed x10 x0 x1 x2) x3 x8 (lowHalf x12) p + score (mixed x11 x4 x5 x6) x7 x9 (highHalf x12) q := by
  have a0 : idx_main_v17 (ix2 p q) = ix2 p 0 := funext fun a => Fin.ext (by match a with | ⟨0, _⟩ => rfl | ⟨1, _⟩ => rfl)
  have a1 : idx_main_v16 (idx_main_v18 (ix2 p q)) = ix2 q 0 := funext fun a => Fin.ext (by match a with | ⟨0, _⟩ => rfl | ⟨1, _⟩ => rfl)
  rw [val_main_v19_apply, val_main_v17_apply, val_main_v18_apply, val_main_v16_apply, a0, a1, scores_m, scores_d]
  try rfl

/-- THE REFERENCE'S RESULT is `result` of its arguments. -/
theorem ref_result (x0 x1 x2 : Mat 4096 256) (x3 : Mat 4096 128) (x4 x5 x6 : Mat 8192 256) (x7 : Mat 8192 128) (x8 x9 : Mat 256 128)
    (x10 x11 : Mat 1 3) (x12 : Mat 512 1) :
    val_main_v22 (F := Ideal) x0 x1 x2 x3 x4 x5 x6 x7 x8 x9 x10 x11 x12 = result x0 x1 x2 x3 x4 x5 x6 x7 x8 x9 x10 x11 x12 := by
  funext i
  obtain ⟨p, q, rfl⟩ : ∃ (p : Fin 4096) (q : Fin 8192), i = ix2 p q := ⟨i 0, i 1, eq_ix2 i⟩
  have hz0 : val_main_call0_v0 (F := Ideal) (ix2 p q) = Ideal.ofBits .f32 0x00000000#32 := by
    rw [val_main_call0_v0_apply]; rfl
  have hz2 : val_main_call0_v2 (F := Ideal) (ix2 p q) = Ideal.ofBits .f32 0x00000000#32 := by
    rw [val_main_call0_v2_apply]; rfl
  have hz5 : val_main_call0_v5 (F := Ideal) (ix2 p q) = Ideal.ofBits .f32 0x00000000#32 := by
    rw [val_main_call0_v5_apply]; rfl
  unfold result
  rw [outer_apply, scoreCol_apply, scoreCol_apply, ← sum_apply x0 x1 x2 x3 x4 x5 x6 x7 x8 x9 x10 x11 x12 p q]
  rw [val_main_v22_apply, val_main_v21_apply, val_main_v20_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, hz0, hz2, hz5]
  exact act_host _

end Cert.ReferenceIdeal.Hand

end
-- ==== Proof.lean ====
/-
  The five claims.

  The three frames: the two kernel programs' are the generated frame certificates; the reference has no kernel, and its
  frame is its run with the result forgotten. The idealization rewrote nothing, so `preserves` has nothing to state.

  The value claim: both idealized programs end with `result` of the argument arrays in their result buffer — for each of the
  two node sets, every row's score (the three views mixed by three weights, projected onto 128 columns, laid beside 128
  further features, contracted with one half of a column of 512 weights), and at (i, j) the activation x · tanh (softplus x)
  of the sum of row i's score in the first set and row j's in the second. The kernel program computes the two columns of
  scores block of rows by block of rows in two regions and the activated sums block by block in a third; the reference
  computes whole arrays. Entry by entry the two are the same finite sums and the same function of them; no finiteness of
  the inputs is used.
-/
import proofs.«100230_j30064771072071_1_alg».proof.Defs
import proofs.«100230_j30064771072071_1_alg».proof.Proof.Gen.Kernel
import proofs.«100230_j30064771072071_1_alg».proof.Proof.Gen.Kernel.Skeleton
import proofs.«100230_j30064771072071_1_alg».proof.Proof.Gen.Kernel.Launch
import proofs.«100230_j30064771072071_1_alg».proof.Proof.Gen.Kernel.Points
import proofs.«100230_j30064771072071_1_alg».proof.Proof.Gen.Kernel.Frame
import proofs.«100230_j30064771072071_1_alg».proof.Proof.Gen.KernelIdeal
import proofs.«100230_j30064771072071_1_alg».proof.Proof.Gen.KernelIdeal.Skeleton
import proofs.«100230_j30064771072071_1_alg».proof.Proof.Gen.KernelIdeal.Launch
import proofs.«100230_j30064771072071_1_alg».proof.Proof.Gen.KernelIdeal.Points
import proofs.«100230_j30064771072071_1_alg».proof.Proof.Gen.KernelIdeal.Frame
import proofs.«100230_j30064771072071_1_alg».proof.Proof.Gen.ReferenceIdeal
import proofs.«100230_j30064771072071_1_alg».proof.Proof.Gen.Pre_finite_inputs
import proofs.«100230_j30064771072071_1_alg».proof.Proof.KernelRun
import proofs.«100230_j30064771072071_1_alg».proof.Proof.Chain
import proofs.«100230_j30064771072071_1_alg».proof.Proof.RefRun
import proofs.«100230_j30064771072071_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end with `result` of the (agreeing) argument arrays in the result buffer. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Hand.result_launch m ρ c), (h c).2⟩)
      (Cert.KernelIdeal.Hand.run_result (F := Ideal) m ρ), ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4, a5, a6, a7, a8, a9, a10, a11, a12⟩ := hagree c
  rw [Cert.ReferenceIdeal.Hand.ref_result, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
